-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S800000 : Shape := ⟨1, ![800000]⟩
abbrev S100x16 : Shape := ⟨2, ![100, 16]⟩
abbrev S16x40 : Shape := ⟨2, ![16, 40]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S800000 : S_.BroadcastsInDim S800000 (![] : Fin 0 → Fin S800000.rank)
  reducesTo_S800000_S_d0 : S800000.ReducesTo [0] S_
  bcast_S_S100x16 : S_.BroadcastsInDim S100x16 (![] : Fin 0 → Fin S100x16.rank)
  reducesTo_S100x16_S_d0_1 : S100x16.ReducesTo [0, 1] S_
  bcast_S_S16x40 : S_.BroadcastsInDim S16x40 (![] : Fin 0 → Fin S16x40.rank)
  reducesTo_S16x40_S_d0_1 : S16x40.ReducesTo [0, 1] S_

variable [Facts]

def fn_part1 {F : FTy → Type} [FloatOps F] (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  main_v18

def fn {F : FTy → Type} [FloatOps F] (main_arg0 : FVec F S50000x100 .f32) (main_arg1 : IVec S800000 32) (main_arg2 : IVec S800000 32) (main_arg3 : FVec F S800000 .f32) (main_arg4 : FVec F S100x16 .f32) (main_arg5 : FVec F S16x40 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S100x16 .f32 := Host.absf main_arg4
  let main_cst_2 : FVec F S_ .f32 := constant S_ .f32 0x7F800000#32
  let main_v10 : FVec F S100x16 .f32 := broadcastInDim S100x16 ![] bcast_S_S100x16 main_cst_2
  let main_v11 : IVec S100x16 1 := cmpf .olt main_v9 main_v10
  let main_c_3 : IVec S_ 1 := constantI S_ 1 1#1
  let main_v12 : IVec S_ 1 := (fun x v => Host.reduce IntOp.andi x v reducesTo_S100x16_S_d0_1 h_S_) main_v11 main_c_3
  let main_v13 : IVec S_ 1 := andi main_v8 main_v12
  let main_v14 : FVec F S16x40 .f32 := Host.absf main_arg5
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_v13 main_v16
-- ==== Kernel.lean ====
abbrev S50000x100 : Shape := ⟨2, ![50000, 100]⟩
abbrev S800000 : Shape := ⟨1, ![800000]⟩
abbrev S100x16 : Shape := ⟨2, ![100, 16]⟩
abbrev S16x40 : Shape := ⟨2, ![16, 40]⟩
abbrev S800000x1 : Shape := ⟨2, ![800000, 1]⟩
abbrev S_ : Shape := ⟨0, ![]⟩
abbrev S800000x100 : Shape := ⟨2, ![800000, 100]⟩
abbrev S50000x16 : Shape := ⟨2, ![50000, 16]⟩
abbrev S10000x100 : Shape := ⟨2, ![10000, 100]⟩
abbrev S10000x16 : Shape := ⟨2, ![10000, 16]⟩
abbrev S800000x16 : Shape := ⟨2, ![800000, 16]⟩
abbrev S50000x40 : Shape := ⟨2, ![50000, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 40
  | .vmem => 10
  | .smem => 0
  | _ => 0

abbrev bufTy : (tb : Table) → Fin (tcTables nBuf tb) → BufTy
  | .hbm, ⟨0, _⟩ => ⟨S50000x100, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S100x16, .f32⟩
  | .hbm, ⟨5, _⟩ => ⟨S16x40, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x100, .f32⟩
  | .hbm, ⟨16, _⟩ => ⟨S800000x100, .f32⟩
  | .hbm, ⟨17, _⟩ => ⟨S800000x100, .f32⟩
  | .hbm, ⟨18, _⟩ => ⟨S_, .f32⟩
  | .hbm, ⟨19, _⟩ => ⟨S50000x100, .f32⟩
  | .hbm, ⟨20, _⟩ => ⟨S800000x1, .i32⟩
  | .hbm, ⟨21, _⟩ => ⟨S50000x100, .f32⟩
  | .hbm, ⟨22, _⟩ => ⟨S50000x16, .f32⟩
  | .hbm, ⟨23, _⟩ => ⟨S800000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x16, .f32⟩
  | .hbm, ⟨33, _⟩ => ⟨S800000x16, .f32⟩
  | .hbm, ⟨34, _⟩ => ⟨S800000x16, .f32⟩
  | .hbm, ⟨35, _⟩ => ⟨S_, .f32⟩
  | .hbm, ⟨36, _⟩ => ⟨S50000x16, .f32⟩
  | .hbm, ⟨37, _⟩ => ⟨S800000x1, .i32⟩
  | .hbm, ⟨38, _⟩ => ⟨S50000x16, .f32⟩
  | .hbm, ⟨39, _⟩ => ⟨S50000x40, .f32⟩
  | .local _ .vmem, ⟨0, _⟩ => ⟨S10000x100, .f32⟩
  | .local _ .vmem, ⟨1, _⟩ => ⟨S10000x100, .f32⟩
  | .local _ .vmem, ⟨2, _⟩ => ⟨S100x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x40, .f32⟩
  | .local _ .vmem, ⟨8, _⟩ => ⟨S10000x40, .f32⟩
  | .local _ .vmem, ⟨9, _⟩ => ⟨S10000x40, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  inb_S10000x100_S10000x100_0_0 : ∀ a, (![0, 0] : Fin 2 → Nat) a + S10000x100.size a ≤ S10000x100.size a
  h_S10000x100 : 0 < S10000x100.numel
  shapeCasts_S10000x100_S10000x100 : S10000x100.ShapeCasts S10000x100
  bitsLt_bf16_f32 : FTy.bits .bf16 < FTy.bits .f32
  inb_S100x16_S100x16_0_0 : ∀ a, (![0, 0] : Fin 2 → Nat) a + S100x16.size a ≤ S100x16.size a
  h_S100x16 : 0 < S100x16.numel
  inb_S10000x16_S10000x16_0_0 : ∀ a, (![0, 0] : Fin 2 → Nat) a + S10000x16.size a ≤ S10000x16.size a
  h_S10000x16 : 0 < S10000x16.numel
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  shapeCasts_S10000x16_S10000x16 : S10000x16.ShapeCasts S10000x16
  inb_S16x40_S16x40_0_0 : ∀ a, (![0, 0] : Fin 2 → Nat) a + S16x40.size a ≤ S16x40.size a
  h_S16x40 : 0 < S16x40.numel
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S10000x100_S100x16_S10000x16_1_0_0_1_n_n_wf : DotDims.WF S10000x100 S100x16 S10000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S10000x16_S16x40_S10000x40_1_0_0_1_n_n_wf : DotDims.WF S10000x16 S16x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x100.size a ≤ S50000x100.size a
  hwx0_0 : ∀ i : grid0.Coords, EltTy.bits .f32 = 32 ∨ (Rect.block (s := S50000x100) S10000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x16.size a ≤ S100x16.size a
  hwx0_1 : ∀ i : grid0.Coords, EltTy.bits .f32 = 32 ∨ (Rect.block (s := S100x16) S100x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S50000x16.size a
  hwx0_2 : ∀ i : grid0.Coords, EltTy.bits .f32 = 32 ∨ (Rect.block (s := S50000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S50000x16.size a
  hwx1_0 : ∀ i : grid1.Coords, EltTy.bits .f32 = 32 ∨ (Rect.block (s := S50000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S50000x40.size a
  hwx1_2 : ∀ i : grid1.Coords, EltTy.bits .f32 = 32 ∨ (Rect.block (s := S50000x40) S10000x40.size (cc1_transform_2 i) (hinb1_2 i)).WholeWords (EltTy.packing .f32)

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S10000x100_S100x16_S10000x16_1_0_0_1_n_n : DotDims S10000x100 S100x16 S10000x16 where
  lhsContracting := [1]
  rhsContracting := [0]
  lhsNonContracting := [0]
  rhsNonContracting := [1]
  lhsBatch := []
  rhsBatch := []
  wf := dot_S10000x100_S100x16_S10000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf

abbrev win0_0 : Pipeline.Window sig grid0 :=
  Pipeline.Window.ofSpec (Memref.whole main_v12) S10000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S100x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x100 : Shape := ⟨2, ![50000, 100]⟩
abbrev S800000 : Shape := ⟨1, ![800000]⟩
abbrev S100x16 : Shape := ⟨2, ![100, 16]⟩
abbrev S16x40 : Shape := ⟨2, ![16, 40]⟩
abbrev S800000x1 : Shape := ⟨2, ![800000, 1]⟩
abbrev S_ : Shape := ⟨0, ![]⟩
abbrev S800000x100 : Shape := ⟨2, ![800000, 100]⟩
abbrev S50000x16 : Shape := ⟨2, ![50000, 16]⟩
abbrev S800000x16 : Shape := ⟨2, ![800000, 16]⟩
abbrev S50000x40 : Shape := ⟨2, ![50000, 40]⟩
abbrev S50000 : Shape := ⟨1, ![50000]⟩
abbrev S50000x1 : Shape := ⟨2, ![50000, 1]⟩

abbrev nBuf : Space → Nat
  | .hbm => 58
  | .vmem => 0
  | .smem => 0
  | _ => 0

abbrev bufTy : (tb : Table) → Fin (tcTables nBuf tb) → BufTy
  | .hbm, ⟨0, _⟩ => ⟨S50000x100, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S100x16, .f32⟩
  | .hbm, ⟨5, _⟩ => ⟨S16x40, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x100, .f32⟩
  | .hbm, ⟨16, _⟩ => ⟨S800000x100, .f32⟩
  | .hbm, ⟨17, _⟩ => ⟨S800000x100, .f32⟩
  | .hbm, ⟨18, _⟩ => ⟨S_, .f32⟩
  | .hbm, ⟨19, _⟩ => ⟨S50000x100, .f32⟩
  | .hbm, ⟨20, _⟩ => ⟨S800000x1, .i32⟩
  | .hbm, ⟨21, _⟩ => ⟨S50000x100, .f32⟩
  | .hbm, ⟨22, _⟩ => ⟨S50000x16, .f32⟩
  | .hbm, ⟨23, _⟩ => ⟨S_, .f32⟩
  | .hbm, ⟨24, _⟩ => ⟨S50000x16, .f32⟩
  | .hbm, ⟨25, _⟩ => ⟨S50000x16, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x16, .f32⟩
  | .hbm, ⟨36, _⟩ => ⟨S800000x16, .f32⟩
  | .hbm, ⟨37, _⟩ => ⟨S800000x16, .f32⟩
  | .hbm, ⟨38, _⟩ => ⟨S_, .f32⟩
  | .hbm, ⟨39, _⟩ => ⟨S50000x16, .f32⟩
  | .hbm, ⟨40, _⟩ => ⟨S800000x1, .i32⟩
  | .hbm, ⟨41, _⟩ => ⟨S50000x16, .f32⟩
  | .hbm, ⟨42, _⟩ => ⟨S50000x40, .f32⟩
  | .hbm, ⟨43, _⟩ => ⟨S_, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x40, .f32⟩
  | .hbm, ⟨50, _⟩ => ⟨S50000x40, .f32⟩
  | .hbm, ⟨51, _⟩ => ⟨S50000x40, .f32⟩
  | .hbm, ⟨52, _⟩ => ⟨S_, .f32⟩
  | .hbm, ⟨53, _⟩ => ⟨S50000, .f32⟩
  | .hbm, ⟨54, _⟩ => ⟨S50000x1, .f32⟩
  | .hbm, ⟨55, _⟩ => ⟨S50000x1, .f32⟩
  | .hbm, ⟨56, _⟩ => ⟨S50000x40, .f32⟩
  | .hbm, ⟨57, _⟩ => ⟨S50000x40, .f32⟩
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_call1_cst_0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_cst_1 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_v29 : Ref sig .tc := ⟨.hbm, 57, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  bcast_S_S50000x16 : S_.BroadcastsInDim S50000x16 (![] : Fin 0 → Fin S50000x16.rank)
  bcast_S800000x1_S800000x16_0_1 : S800000x1.BroadcastsInDim S800000x16 (![0, 1] : Fin 2 → Fin S800000x16.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x16_S50000x16_1_0_0_1_n_n_wf : DotDims.WF S50000x100 S100x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x40_S50000x40_1_0_0_1_n_n_wf : DotDims.WF S50000x16 S16x40 S50000x40 [1] [0] [0] [1] [] []

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x16_S50000x16_1_0_0_1_n_n : DotDims S50000x100 S100x16 S50000x16 where
  lhsContracting := [1]
  rhsContracting := [0]
  lhsNonContracting := [0]
  rhsNonContracting := [1]
  lhsBatch := []
  rhsBatch := []
  wf := dot_S50000x100_S100x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x40_S50000x40_1_0_0_1_n_n : DotDims S50000x16 S16x40 S50000x40 where
  lhsContracting := [1]
  rhsContracting := [0]
  lhsNonContracting := [0]
  rhsNonContracting := [1]
  lhsBatch := []
  rhsBatch := []
  wf := dot_S50000x16_S16x40_S50000x40_1_0_0_1_n_n_wf

class Facts : Prop extends Facts₀ where

variable [Facts]
-- ==== Proof.KernelRun.lean ====
/-
  The idealized kernel's run with its result named.

  The program is four segments: host operations, the first launch, host operations, the second launch. Every weakly fair
  execution ends, nothing faulting, with each unscoped buffer at the contents the segments leave one after the other;
  read at the result buffer that is the second launch's output array after its last write-back, and at each argument the
  launch contents.
-/
import proofs.«134925_j63848983822675_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution terminates with the result buffer at what the last segment leaves there and the
    arguments as launched. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Val

end
-- ==== Proof.LibRowGatherScatter.lean ====
/-
  Rows gathered and rows scattered, read at one element, over any sizes.

  A table `x` of R rows and C columns; N index words. The row gather makes the N × C table whose row n is row
  `idx n` of x, the word read as a signed integer and clamped into [0, R − 1]. The accumulating row scatter adds row n
  of an N × C table of updates to row `idx n` of the operand, the word read signed and NOT clamped: a row whose index
  is outside the operand is dropped. On the extended reals the scatter's result at (r, c) is the operand there plus the
  sum, over the rows n whose index is r, of the update at (n, c); no order of accumulation is left in it. Composed: the
  scatter of weighted gathered rows at (r, c) is a sum over n of weight · x (clamped source row of n, c) — column c of
  the result only ever meets column c of x.
-/
import Idealize.ShloMosaic.PureOps.Ideal
import Idealize.ShloMosaic.Lib.ValueIdx
import Idealize.ShloMosaic.Lib.Pipeline.Value

noncomputable section

open scoped BigOperators

namespace Cert.LibRowGatherScatter

open Idealize.ShloMosaic Idealize.ShloMosaic.ValueIdx

/-- The row an index word names for a gather out of R rows: read signed, clamped into [0, R − 1]. -/
def clampRow (R : Nat) (hR : 0 < R) {w : Nat} (b : BitVec w) : Fin R := ⟨min b.toInt.toNat (R - 1), by omega⟩

section Gather

variable {α : Type} {R N C : Nat}

/-- The dimension numbers of a row gather, for an operand [R, C], start indices [N, 1] and a result [N, C]. -/
abbrev rowGatherDims (R N C : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rowDims_apply (hR : 0 < R)
    (wf : GatherDims.WF ⟨2, ![R, C]⟩ ⟨2, ![N, 1]⟩ ⟨2, ![N, C]⟩ [1] [0] [] [0] [] 1 ![1, C]) {w : Nat}
    (x : (⟨2, ![R, C]⟩ : Shape).Idx → α) (idx : IVec ⟨2, ![N, 1]⟩ w) (n : Fin N) (c : Fin C) :
    Host.gather (rowGatherDims R N C wf) x idx (ix2 n c) = x (ix2 (clampRow R hR (idx (ix2 n (0 : Fin 1)))) c) := by
  unfold Host.gather
  congr 1
  funext a
  refine Fin.ext ?_
  have e0 : ((rowGatherDims R N C wf).operandIdx (ix2 n c) idx 0).val = min (idx (ix2 n (0 : Fin 1))).toInt.toNat (R - 1) := by
    show (rowGatherDims R N C wf).start (ix2 n c) idx 0 + (rowGatherDims R N C wf).batchCoord (ix2 n c) 0
      + (rowGatherDims R N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N C wf).startIndexMap from List.mem_singleton.mpr rfl)]
    have hsi : (rowGatherDims R N C wf).siIdx (ix2 n c) ⟨List.idxOf (0 : Fin 2) (rowGatherDims R N C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have e1 : ((rowGatherDims R N C wf).operandIdx (ix2 n c) idx 1).val = c.val := by
    show (rowGatherDims R N C wf).start (ix2 n c) idx 1 + (rowGatherDims R N C wf).batchCoord (ix2 n c) 1
      + (rowGatherDims R N C wf).offCoord (ix2 n c) 1 = _
    rw [GatherDims.batchCoord_eq_zero _ _ _ List.not_mem_nil]
    have hs : (rowGatherDims R N C wf).start (ix2 n c) idx 1 = 0 := by
      unfold GatherDims.start
      rw [dif_neg (show (1 : Fin 2) ∉ (rowGatherDims R N C wf).startIndexMap from
        (by decide : (1 : Fin 2) ∉ ([0] : List (Fin 2))))]
    rw [hs]
    simp only [Nat.add_zero, Nat.zero_add]
    unfold GatherDims.offCoord
    rw [dif_pos (show (1 : Fin 2) ∈ (rowGatherDims R N C wf).sKept from
      List.mem_filter.2 ⟨List.mem_finRange _, (by decide : decide ((1 : Fin 2) ∉ (([0] : List (Fin 2)) ++ [])) = true)⟩)]
    rfl
  match a with
  | ⟨0, _⟩ => exact e0
  | ⟨1, _⟩ => exact e1

/-- THE ROW GATHER READ AT (n, c): x at (the clamped row of word n, c). -/
theorem gather_rows (g : GatherDims ⟨2, ![R, C]⟩ ⟨2, ![N, 1]⟩ ⟨2, ![N, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (hR : 0 < R) {w : Nat}
    (x : (⟨2, ![R, C]⟩ : Shape).Idx → α) (idx : IVec ⟨2, ![N, 1]⟩ w) (n : Fin N) (c : Fin C) :
    Host.gather g x idx (ix2 n c) = x (ix2 (clampRow R hR (idx (ix2 n (0 : Fin 1)))) c) := by
  obtain ⟨od, cd, ob, sb, sm, iv, ss, wf⟩ := g
  simp only at h1 h2 h3 h4 h5 h6 h7
  subst h1 h2 h3 h4 h5 h6 h7
  exact gather_rowDims_apply hR wf x idx n c

end Gather

section Scatter

variable {R N C : Nat} (d : ScatterDims ⟨2, ![R, C]⟩ ⟨2, ![N, 1]⟩ ⟨2, ![N, C]⟩)

/-- Where update element (n, c') lands: at (r, c) exactly when row n's index word, read signed, is r and c' = c. -/
theorem resultIdx?_rows (h1 : d.updateWindowDims = [1]) (h2 : d.insertedWindowDims = [0])
    (h3 : d.scatterDimsToOperandDims = [0]) (h4 : d.indexVectorDim = 1) {w : Nat}
    (idx : IVec ⟨2, ![N, 1]⟩ w) (n : Fin N) (c' : Fin C) (r : Fin R) (c : Fin C) :
    d.resultIdx? (ix2 n c') idx = some (ix2 r c) ↔ (idx (ix2 n (0 : Fin 1))).toInt = (r.val : ℤ) ∧ c' = c := by
  obtain ⟨uw, iw, sd, iv, wf⟩ := d
  simp only at h1 h2 h3 h4
  subst h1 h2 h3 h4
  have hs0 : ScatterDims.start ⟨[1], [0], [0], 1, wf⟩ (ix2 n c') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n c') idx 1 = 0 := by
    unfold ScatterDims.start
    rw [dif_neg (show (1 : Fin 2) ∉ ([0] : List (Fin 2)) by decide)]
  have hw0 : ScatterDims.window ⟨[1], [0], [0], 1, wf⟩ (ix2 n c') 0 = 0 := by
    unfold ScatterDims.window
    rw [dif_neg (show (0 : Fin 2) ∉ (⟨2, ![R, C]⟩ : Shape).kept [0] from
      fun h => (of_decide_eq_true (List.mem_filter.1 h).2) (List.mem_singleton.mpr rfl))]
  have hw1 : ScatterDims.window ⟨[1], [0], [0], 1, wf⟩ (ix2 n c') 1 = c'.val := by
    unfold ScatterDims.window
    rw [dif_pos (show (1 : Fin 2) ∈ (⟨2, ![R, C]⟩ : Shape).kept [0] from
      List.mem_filter.2 ⟨List.mem_finRange _, (by decide : decide ((1 : Fin 2) ∉ ([0] : List (Fin 2))) = true)⟩)]
    rfl
  unfold ScatterDims.resultIdx?
  simp only [Fin.forall_fin_two, hs0, hs1, hw0, hw1]
  have hc0 : (ix2 r c (0 : Fin 2)) = r := rfl
  have hc1 : (ix2 r c (1 : Fin 2)) = c := rfl
  have hz0 : ((![R, C] : Fin 2 → ℕ) 0) = R := rfl
  have hz1 : ((![R, C] : Fin 2 → ℕ) 1) = C := rfl
  have hr := r.isLt
  have hc := c.isLt
  have hc' := c'.isLt
  by_cases hcond : ((0 ≤ (idx (ix2 n (0 : Fin 1))).toInt + ((0 : ℕ) : ℤ) ∧ (idx (ix2 n (0 : Fin 1))).toInt + ((0 : ℕ) : ℤ) < (((![R, C] : Fin 2 → ℕ) 0 : ℕ) : ℤ)) ∧
            0 ≤ (0 : ℤ) + ((c'.val : ℕ) : ℤ) ∧ (0 : ℤ) + ((c'.val : ℕ) : ℤ) < (((![R, C] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT (r, c): the operand there plus the updates (n, c) of the rows n whose index is r. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![R, C]⟩ .f32) (idx : IVec ⟨2, ![N, 1]⟩ w)
    (upd : FVec Ideal ⟨2, ![N, C]⟩ .f32) (r : Fin R) (c : Fin C) :
    Host.scatterAdd (F := Ideal) d x idx upd (ix2 r c)
      = x (ix2 r c) + ∑ n : Fin N, (if (idx (ix2 n (0 : Fin 1))).toInt = (r.val : ℤ) then upd (ix2 n c) else 0) := by
  simp only [Host.scatterAdd, Ideal.hostScatterAdd_def, Ideal.hostScatterAdd]
  refine congrArg (x (ix2 r c) + ·) ?_
  rw [Finset.sum_filter, sum_idx2]
  refine Finset.sum_congr rfl fun n _ => ?_
  simp only [resultIdx?_rows d h1 h2 h3 h4]
  by_cases hA : (idx (ix2 n (0 : Fin 1))).toInt = (r.val : ℤ)
  · simp only [hA, true_and, if_true]
    rw [Finset.sum_ite_eq' Finset.univ c (fun c' => upd (ix2 n c')), if_pos (Finset.mem_univ c)]
  · simp only [hA, false_and, if_false, Finset.sum_const_zero]

end Scatter

section Propagate

variable {R N C : Nat} (d : ScatterDims ⟨2, ![R, C]⟩ ⟨2, ![N, 1]⟩ ⟨2, ![N, C]⟩)
  (g : GatherDims ⟨2, ![R, C]⟩ ⟨2, ![N, 1]⟩ ⟨2, ![N, C]⟩)

/-- The scatter of weighted gathered rows at (r, c): the operand there plus, over the rows n sent to r, weight (n, c)
    times x at (the clamped source row of n, c). -/
theorem scatter_mul_gather (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {w w' : Nat}
    (z x : FVec Ideal ⟨2, ![R, C]⟩ .f32) (wt : FVec Ideal ⟨2, ![N, C]⟩ .f32)
    (idxD : IVec ⟨2, ![N, 1]⟩ w) (idxS : IVec ⟨2, ![N, 1]⟩ w') (r : Fin R) (c : Fin C) :
    Host.scatterAdd (F := Ideal) d z idxD (mulf wt (Host.gather g x idxS)) (ix2 r c)
      = z (ix2 r c) + ∑ n : Fin N, (if (idxD (ix2 n (0 : Fin 1))).toInt = (r.val : ℤ)
          then wt (ix2 n c) * x (ix2 (clampRow R hR (idxS (ix2 n (0 : Fin 1)))) c) else 0) := by
  rw [scatterAdd_rows d h1 h2 h3 h4]
  refine congrArg (z (ix2 r c) + ·) (Finset.sum_congr rfl fun n _ => ?_)
  rw [mulf_apply, gather_rows g k1 k2 k3 k4 k5 k6 k7 hR]

end Propagate

section Widths

variable {R N C C' : Nat}

/-- A per-row number broadcast across C columns, read at (n, c): the number of row n. -/
theorem bcast_col_apply {α : Type} (hN : N ≠ 1) (v : (⟨1, ![N]⟩ : Shape).Idx → α)
    (h3 : (⟨1, ![N]⟩ : Shape).BroadcastsInDim ⟨2, ![N, 1]⟩ ![0])
    (h4 : (⟨2, ![N, 1]⟩ : Shape).BroadcastsInDim ⟨2, ![N, C]⟩ ![0, 1]) (n : Fin N) (c : Fin C) :
    broadcastInDim ⟨2, ![N, C]⟩ ![0, 1] h4 (broadcastInDim ⟨2, ![N, 1]⟩ ![0] h3 v) (ix2 n c) = v (ix1 n) := by
  refine (broadcastInDim_apply _ h4 _ (ix2 n c) (ix2 n (0 : Fin 1)) ?_).trans ?_
  · intro a
    match a with
    | ⟨0, _⟩ => show n.val = if N = 1 then 0 else n.val; rw [if_neg hN]
    | ⟨1, _⟩ => show (0 : Fin 1).val = if (1 : Nat) = 1 then 0 else c.val; rw [if_pos rfl]; rfl
  refine broadcastInDim_apply _ h3 v (ix2 n (0 : Fin 1)) (ix1 n) ?_
  intro a
  match a with
  | ⟨0, _⟩ => show n.val = if N = 1 then 0 else n.val; rw [if_neg hN]

/-- TWO WIDTHS, ONE COLUMN EACH: the scatter of weighted gathered rows over tables of C columns, read at column c,
    and the same over tables of C' columns, read at column c', agree when the operands agree at those two columns —
    the index lists being the same. A propagation of a wide table is, column by column, the propagation of its
    columns. -/
theorem scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf wt (Host.gather g x idxS)) (ix2 r c)
      = Host.scatterAdd (F := Ideal) d' z' idxD (mulf wt' (Host.gather g' x' idxS)) (ix2 r c') := by
  rw [scatter_mul_gather d g h1 h2 h3 h4 k1 k2 k3 k4 k5 k6 k7 hR,
    scatter_mul_gather d' g' h1' h2' h3' h4' k1' k2' k3' k4' k5' k6' k7' hR, hz]
  refine congrArg (z' (ix2 r c') + ·) (Finset.sum_congr rfl fun n _ => ?_)
  rw [hw n, hx]

/-- The same under a negation: the scaled Laplacian's sign. -/
theorem neg_scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.negf (F := Ideal) (Host.scatterAdd (F := Ideal) d z idxD (mulf wt (Host.gather g x idxS))) (ix2 r c)
      = Host.negf (F := Ideal) (Host.scatterAdd (F := Ideal) d' z' idxD (mulf wt' (Host.gather g' x' idxS))) (ix2 r c') := by
  show -(Host.scatterAdd (F := Ideal) d z idxD (mulf wt (Host.gather g x idxS)) (ix2 r c))
    = -(Host.scatterAdd (F := Ideal) d' z' idxD (mulf wt' (Host.gather g' x' idxS)) (ix2 r c'))
  rw [scatter_mul_gather_congr d g d' g' h1 h2 h3 h4 k1 k2 k3 k4 k5 k6 k7 h1' h2' h3' h4' k1' k2' k3' k4' k5' k6' k7' hR
    z x wt z' x' wt' idxD idxS r c c' hz hw hx]

end Widths

end Cert.LibRowGatherScatter

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.Spec.lean ====
/-
  Two rounds of message passing over an edge list with a dense layer after each, then a log-softmax along the rows,
  as functions of whole arrays on the extended reals.

  A round sends, along every edge n, the source node's row (the source word read signed, a negative word wrapped once by
  the number of nodes, then clamped into range) scaled by the edge's weight, and adds what arrives at each destination
  node onto zeros; an edge whose destination word names no node is dropped (`spmm`). After the first round the rows
  go through a matrix product and a maximum with zero (`matmulFn`, `relu0`), after the second through a matrix product
  and the log-softmax of each row. The log-softmax is written in two ways: the shifted entry minus the log of the sum
  of shifted exponentials (`lsmRef`), and the entry minus (row maximum + that log) (`lsmKer`). They agree on rows of
  real numbers, because the row maximum is then real (`lsmKer_eq_lsmRef`); at an infinite maximum they differ. Every
  stage sends arrays of real entries to arrays of real entries, which is what carries the inputs' finiteness to the rows
  the log-softmax sees.
-/
import Idealize.ShloMosaic.PureOps.Ideal.Laws
import Idealize.ShloMosaic.Lib.ValueIdx
import Idealize.ShloMosaic.Lib.Pipeline.Value
import proofs.«134925_j63848983822675_1_alg».proof.Proof.LibRowGatherScatter
import proofs.«134925_j63848983822675_1_alg».proof.Proof.LibRealEntries
import proofs.«134925_j63848983822675_1_alg».proof.Proof.LibRowSoftmax

noncomputable section

open scoped BigOperators

namespace Cert.Gcn

open Idealize.ShloMosaic Idealize.ShloMosaic.ValueIdx Cert.LibRealEntries Cert.LibRowGatherScatter Cert.RowSoftmax

/-- One number per edge. -/
abbrev SE : Shape := ⟨1, ![800000]⟩
/-- One number per edge, as a column. -/
abbrev SE1 : Shape := ⟨2, ![800000, 1]⟩
/-- A single number. -/
abbrev Sc : Shape := ⟨0, ![]⟩
/-- One row of C numbers per node. -/
abbrev SN (C : Nat) : Shape := ⟨2, ![50000, C]⟩
/-- One row of C numbers per edge. -/
abbrev SEC (C : Nat) : Shape := ⟨2, ![800000, C]⟩

/-! ## A round of message passing -/

/-- What every node receives: the weighted source rows of the edges that point at it, added onto zeros. -/
def spmm {C : Nat} (g : GatherDims (SN C) SE1 (SEC C)) (d : ScatterDims (SN C) SE1 (SEC C))
    (hb0 : Sc.BroadcastsInDim (SN C) (![] : Fin 0 → Fin (SN C).rank))
    (hb1 : SE.BroadcastsInDim SE1 (![0] : Fin 1 → Fin SE1.rank))
    (hb2 : SE1.BroadcastsInDim (SEC C) (![0, 1] : Fin 2 → Fin (SEC C).rank))
    (hb3 : Sc.BroadcastsInDim SE (![] : Fin 0 → Fin SE.rank))
    (src dst : IVec SE 32) (val : FVec Ideal SE .f32) (x : FVec Ideal (SN C) .f32) : FVec Ideal (SN C) .f32 :=
  Host.scatterAdd (F := Ideal) d (broadcastInDim (SN C) ![] hb0 (constant (F := Ideal) Sc .f32 0x00000000#32))
    (broadcastInDim SE1 ![0] hb1 dst)
    (mulf (broadcastInDim (SEC C) ![0, 1] hb2 (broadcastInDim SE1 ![0] hb1 val))
      (Host.gather g x (broadcastInDim SE1 ![0] hb1
        (select (cmpi .slt src (broadcastInDim SE ![] hb3 (constantI Sc 32 0#32)))
          (addi src (broadcastInDim SE ![] hb3 (constantI Sc 32 50000#32))) src))))

/-- A round of message passing over real weights and real rows gives real rows: each entry is a finite sum of products. -/
theorem spmm_real {C : Nat} (g : GatherDims (SN C) SE1 (SEC C)) (d : ScatterDims (SN C) SE1 (SEC C))
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (hb0 : Sc.BroadcastsInDim (SN C) (![] : Fin 0 → Fin (SN C).rank))
    (hb1 : SE.BroadcastsInDim SE1 (![0] : Fin 1 → Fin SE1.rank))
    (hb2 : SE1.BroadcastsInDim (SEC C) (![0, 1] : Fin 2 → Fin (SEC C).rank))
    (hb3 : Sc.BroadcastsInDim SE (![] : Fin 0 → Fin SE.rank))
    (src dst : IVec SE 32) (val : FVec Ideal SE .f32) (x : FVec Ideal (SN C) .f32)
    (hval : ∀ i, IsReal (val i)) (hx : ∀ i, IsReal (x i)) (i : (SN C).Idx) :
    IsReal (spmm g d hb0 hb1 hb2 hb3 src dst val x i) := by
  obtain ⟨r, c, rfl⟩ : ∃ (r : Fin 50000) (c : Fin C), i = ix2 r c := ⟨i 0, i 1, eq_ix2 i⟩
  unfold spmm
  rw [scatter_mul_gather d g h1 h2 h3 h4 k1 k2 k3 k4 k5 k6 k7 (by decide : 0 < 50000)]
  refine IsReal.add ?_ (isReal_sum _ _ fun n _ => IsReal.ite (IsReal.mul ?_ (hx _)) isReal_zero)
  · rw [broadcastInDim_apply _ hb0 _ (ix2 r c) ix0 (fun a => a.elim0), constant_apply, Ideal.ofBits_zero_f32]
    exact isReal_zero
  · rw [bcast_col_apply (by decide : (800000 : Nat) ≠ 1) val hb1 hb2 n c]
    exact hval _

/-! ## The dense layers -/

/-- The product of an M × K and a K × N matrix, entry by entry. -/
def matmulFn {M K N : Nat} (a : (⟨2, ![M, K]⟩ : Shape).Idx → EReal) (b : (⟨2, ![K, N]⟩ : Shape).Idx → EReal) :
    (⟨2, ![M, N]⟩ : Shape).Idx → EReal :=
  fun y => ∑ k : Fin K, a (ix2 (n0 := M) (y 0) k) * b (ix2 (n1 := N) k (y 1))

theorem matmulFn_ix2 {M K N : Nat} (a : (⟨2, ![M, K]⟩ : Shape).Idx → EReal) (b : (⟨2, ![K, N]⟩ : Shape).Idx → EReal)
    (i : Fin M) (j : Fin N) : matmulFn a b (ix2 i j) = ∑ k : Fin K, a (ix2 i k) * b (ix2 k j) := rfl

theorem matmulFn_real {M K N : Nat} (a : (⟨2, ![M, K]⟩ : Shape).Idx → EReal) (b : (⟨2, ![K, N]⟩ : Shape).Idx → EReal)
    (ha : ∀ i, IsReal (a i)) (hb : ∀ i, IsReal (b i)) (y : (⟨2, ![M, N]⟩ : Shape).Idx) : IsReal (matmulFn a b y) :=
  isReal_sum _ _ fun _ _ => (ha _).mul (hb _)

/-- The maximum with zero, entry by entry. -/
def relu0 {s : Shape} (a : s.Idx → EReal) : s.Idx → EReal := fun y => max (a y) (Ideal.ofBits .f32 0x00000000#32)

theorem relu0_real {s : Shape} (a : s.Idx → EReal) (ha : ∀ i, IsReal (a i)) (y : s.Idx) : IsReal (relu0 a y) := by
  unfold relu0
  rw [Ideal.ofBits_zero_f32]
  exact (ha y).max isReal_zero

/-! ## The log-softmax of every row, twice -/

/-- The entry minus (the row's maximum + the log of the row's sum of shifted exponentials). -/
def lsmKer {a b : Nat} (x : (⟨2, ![a, b]⟩ : Shape).Idx → EReal) : (⟨2, ![a, b]⟩ : Shape).Idx → EReal :=
  fun y => x y - (rowMax (fun k : Fin b => x (ix2 (n0 := a) (y 0) k))
    + Ideal.log (∑ l : Fin b, Ideal.exp (x (ix2 (n0 := a) (y 0) l) - rowMax (fun k : Fin b => x (ix2 (n0 := a) (y 0) k)))))

/-- The shifted entry minus the log of the row's sum of shifted exponentials. -/
def lsmRef {a b : Nat} (x : (⟨2, ![a, b]⟩ : Shape).Idx → EReal) : (⟨2, ![a, b]⟩ : Shape).Idx → EReal :=
  fun y => x y - rowMax (fun k : Fin b => x (ix2 (n0 := a) (y 0) k))
    - Ideal.log (∑ l : Fin b, Ideal.exp (x (ix2 (n0 := a) (y 0) l) - rowMax (fun k : Fin b => x (ix2 (n0 := a) (y 0) k))))

/-- The greatest entry of a nonempty row of reals is real. -/
theorem rowMax_real {b : Nat} (hb : 0 < b) (r : Fin b → EReal) (hr : ∀ k, IsReal (r k)) : IsReal (rowMax r) := by
  unfold rowMax
  rw [negInf_eq_bot]
  exact isReal_fold_max _ _ ⟨⟨0, hb⟩, Finset.mem_univ _⟩ fun k _ => hr k

/-- On rows of real numbers the two ways of writing the log-softmax agree. -/
theorem lsmKer_eq_lsmRef {a b : Nat} (hb : 0 < b) (x : (⟨2, ![a, b]⟩ : Shape).Idx → EReal) (hx : ∀ i, IsReal (x i)) :
    lsmKer x = lsmRef x := by
  funext y
  unfold lsmKer lsmRef
  exact sub_add_of_isReal (rowMax_real hb _ fun k => hx _) _ _

end Cert.Gcn

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.KernelForms.lean ====
/-
  A vector kernel's log-softmax of every row of a block, read at one entry, on the extended reals.

  The kernel takes the lanes' maximum from −∞, subtracts it, exponentiates, sums along the lanes from zero, takes the
  log of the sum, ADDS the row maximum to that log — both as columns — and subtracts the column, broadcast along the
  lanes, from the block. At (p, q) that is `lsmKer`: the entry minus (row maximum + log of the row's sum of shifted
  exponentials).
-/
import Idealize.ShloMosaic.PureOps.Ideal.Laws
import Idealize.ShloMosaic.Lib.ValueIdx
import Idealize.ShloMosaic.Lib.Pipeline.Value
import proofs.«134925_j63848983822675_1_alg».proof.Proof.Spec
import proofs.«134925_j63848983822675_1_alg».proof.Proof.LibColRowBroadcast

noncomputable section

open scoped BigOperators

namespace Cert.Gcn

open Idealize.ShloMosaic Idealize.ShloMosaic.ValueIdx Cert.RowSoftmax Cert.ColRowBroadcast

/-- The kernel's log-softmax expression over an [a, b] block, at (p, q). -/
theorem kerLsm_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    subf v (broadcastTo ⟨2, ![a, b]⟩
      (addf (shapeCast ⟨2, ![a, 1]⟩ (multiReduction .maximumf [1] ⟨1, ![a]⟩ v 0xFF800000#32 hr hφ hm) hc)
        (log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc))) hb) (ix2 p q)
      = lsmKer v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  unfold lsmKer
  show v (ix2 p q) - broadcastTo ⟨2, ![a, b]⟩
      (addf (shapeCast ⟨2, ![a, 1]⟩ (multiReduction .maximumf [1] ⟨1, ![a]⟩ v 0xFF800000#32 hr hφ hm) hc)
        (log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc))) hb (ix2 p q) = _
  rw [colBroadcast_apply]
  show v (ix2 p q) - (shapeCast ⟨2, ![a, 1]⟩ (multiReduction .maximumf [1] ⟨1, ![a]⟩ v 0xFF800000#32 hr hφ hm) hc (ix2 p (0 : Fin 1))
      + Ideal.log (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc (ix2 p (0 : Fin 1)))) = _
  rw [colCast_apply, colCast_apply, laneMax_apply, laneSum_apply]
  refine congrArg (fun s => v (ix2 p q) - (rowMax (fun k : Fin b => v (ix2 p k)) + Ideal.log s)) ?_
  exact Finset.sum_congr rfl fun k _ => hsub k

/-- The kernel's log-softmax only looks along rows: two arrays holding the same row give the same values on it. -/
theorem lsmKer_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    lsmKer x' (ix2 p' q) = lsmKer x (ix2 p q) := by
  unfold lsmKer
  show x' (ix2 p' q) - (rowMax (fun k : Fin b => x' (ix2 p' k)) + Ideal.log (∑ l : Fin b, Ideal.exp (x' (ix2 p' l) - rowMax (fun k : Fin b => x' (ix2 p' k)))))
    = x (ix2 p q) - (rowMax (fun k : Fin b => x (ix2 p k)) + Ideal.log (∑ l : Fin b, Ideal.exp (x (ix2 p l) - rowMax (fun k : Fin b => x (ix2 p k)))))
  simp only [h]

end Cert.Gcn

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.KPay.lean ====
/-
  What the two kernel bodies store, as functions of the blocks they load, on the extended reals.

  The first body stores the maximum with zero of its rows block times the weight matrix (the two roundings to bf16 on
  the way into the product are the identity on the extended reals): `relu0 (matmulFn x w)`. The second stores the
  log-softmax, in the kernel's way of writing it, of every row of its rows block times the weight matrix:
  `lsmKer (matmulFn x w)`.
-/
import proofs.«134925_j63848983822675_1_alg».proof.Proof.Gen.KernelIdeal.Skeleton
import proofs.«134925_j63848983822675_1_alg».proof.Proof.Spec
import proofs.«134925_j63848983822675_1_alg».proof.Proof.KernelForms
import proofs.«134925_j63848983822675_1_alg».proof.Proof.LibPlainMatmul
import Idealize.ShloMosaic.Lib.ValueIdx
import Idealize.ShloMosaic.Lib.Pipeline.Value

noncomputable section

open scoped BigOperators

namespace Cert.KernelIdeal.Val

open Cert.KernelIdeal Cert.KernelIdeal.Gen Idealize.ShloMosaic Idealize.ShloMosaic.ValueIdx Cert.Gcn

theorem dot0_eq : dot_S10000x100_S100x16_S10000x16_1_0_0_1_n_n = DotDims.plain 10000 100 16 := rfl
theorem dot1_eq : dot_S10000x16_S16x40_S10000x40_1_0_0_1_n_n = DotDims.plain 10000 16 40 := rfl

/-- A product into zeros, as a whole block. -/
theorem matmul0_eq (x0 : FVec Ideal S10000x100 .f32) (x1 : FVec Ideal S100x16 .f32) :
    (FloatOps.matmul dot_S10000x100_S100x16_S10000x16_1_0_0_1_n_n none x0 x1 (constant S10000x16 .f32 0x00000000#32) : FVec Ideal S10000x16 .f32)
      = matmulFn (M := 10000) (K := 100) (N := 16) x0 x1 := by
  funext y
  obtain ⟨p, q, rfl⟩ : ∃ (p : Fin 10000) (q : Fin 16), y = ix2 p q := ⟨y 0, y 1, eq_ix2 y⟩
  rw [dot0_eq]
  exact Cert.PlainMatmul.matmul_zero_apply 10000 100 16 none x0 x1 p q

theorem matmul1_eq (x0 : FVec Ideal S10000x16 .f32) (x1 : FVec Ideal S16x40 .f32) :
    (FloatOps.matmul dot_S10000x16_S16x40_S10000x40_1_0_0_1_n_n none x0 x1 (constant S10000x40 .f32 0x00000000#32) : FVec Ideal S10000x40 .f32)
      = matmulFn (M := 10000) (K := 16) (N := 40) x0 x1 := by
  funext y
  obtain ⟨p, q, rfl⟩ : ∃ (p : Fin 10000) (q : Fin 40), y = ix2 p q := ⟨y 0, y 1, eq_ix2 y⟩
  rw [dot1_eq]
  exact Cert.PlainMatmul.matmul_zero_apply 10000 16 40 none x0 x1 p q

/-- The first body's store: the block times the weights, then the maximum with zero. -/
theorem pay0_eq (x0 : Vec Ideal S10000x100 .f32) (x1 : Vec Ideal S100x16 .f32) :
    k0_pay1 (F := Ideal) x0 x1 = relu0 (matmulFn (M := 10000) (K := 100) (N := 16) x0 x1) := by
  unfold k0_pay1
  simp only [shapeCast_self]
  rw [← matmul0_eq]
  rfl

/-- The second body's store: the block times the weights, then the kernel's log-softmax of every row. -/
theorem pay1_eq (x0 : Vec Ideal S10000x16 .f32) (x1 : Vec Ideal S16x40 .f32) :
    k1_pay1 (F := Ideal) x0 x1 = lsmKer (matmulFn (M := 10000) (K := 16) (N := 40) x0 x1) := by
  funext y
  obtain ⟨p, q, rfl⟩ : ∃ (p : Fin 10000) (q : Fin 40), y = ix2 p q := ⟨y 0, y 1, eq_ix2 y⟩
  unfold k1_pay1
  simp only [shapeCast_self]
  rw [← matmul1_eq]
  exact kerLsm_apply (FloatOps.matmul dot_S10000x16_S16x40_S10000x40_1_0_0_1_n_n none x0 x1 (constant S10000x40 .f32 0x00000000#32))
    reduces_S10000x40_S10000 (.inl rfl) (.inl rfl) rfl rfl shapeCasts_S10000_S10000x1 broadcasts_S10000x1_S10000x40 p q

end Cert.KernelIdeal.Val

end
-- ==== Proof.KBlocks0.lean ====
/-
  The first launch, from blocks to the array.

  The rows are cut into five blocks of 10000; point t loads rows block t and the whole weight matrix, and writes back
  block t of the output. Block t of the output is therefore block t of ONE whole-array function of what the launch finds
  in its two input arrays — the rows times the weights, then the maximum with zero — because entry (p, q) of the block
  only reads row 10000·t + p of the rows and column q of the weights. The five blocks cover the output array, so after the
  launch the array IS that function.
-/
import proofs.«134925_j63848983822675_1_alg».proof.Proof.Gen.KernelIdeal.Frame
import proofs.«134925_j63848983822675_1_alg».proof.Proof.KPay
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array of the first launch as one function of its two input arrays. -/
def G0 (c : Dev nD) : Buf (Elt Ideal) ((c : Thread nD τ).loc main_v13) :=
  relu0 (matmulFn (M := 50000) (K := 100) (N := 16) (V c main_v12) (V c main_arg4))

/-- The printed index maps over the grid: the rows window and the output window sit at block t along the rows, the
    weights window at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the rows block at point t is row 10000·t + p of the rows array. -/
theorem iblk0_rows (c : Dev nD) (t : Fin cfg0.N) (p : Fin 10000) (k : Fin 100) (r : Fin 50000) (hr : r.val = t.val * 10000 + p.val) :
    (iblk0 V c 0 t : Vec Ideal S10000x100 .f32) (ix2 p k) = (V c main_v12 : S50000x100.Idx → EReal) (ix2 r k) := by
  obtain ⟨e0, e1, -, -, -, -⟩ := idx_facts0 t
  unfold iblk0
  rw [View.read_apply]
  show V c main_v12 _ = V c main_v12 _
  congr 1
  funext a
  apply Fin.ext
  match a with
  | ⟨0, _⟩ => show win0_0.index t 0 * 10000 + 1 * p.val = r.val; rw [e0, hr]; omega
  | ⟨1, _⟩ => show win0_0.index t 1 * 100 + 1 * k.val = k.val; rw [e1]; omega

/-- The weights block at any point is the weights array. -/
theorem iblk0_weights (c : Dev nD) (t : Fin cfg0.N) (k : Fin 100) (q : Fin 16) :
    (iblk0 V c 1 t : Vec Ideal S100x16 .f32) (ix2 k q) = (V c main_arg4 : S100x16.Idx → EReal) (ix2 k q) := by
  obtain ⟨-, -, e2, e3, -, -⟩ := idx_facts0 t
  unfold iblk0
  rw [View.read_apply]
  show V c main_arg4 _ = V c main_arg4 _
  congr 1
  funext a
  apply Fin.ext
  match a with
  | ⟨0, _⟩ => show win0_1.index t 0 * 100 + 1 * k.val = k.val; rw [e2]; omega
  | ⟨1, _⟩ => show win0_1.index t 1 * 16 + 1 * q.val = q.val; rw [e3]; omega

/-- What point t writes back is block t of `G0`. -/
theorem flushed0_eq (c : Dev nD) (t : Fin cfg0.N) :
    (dat0 V c).flushed 2 t = ((cfg0.win 2).blk t).view.read (Elt Ideal) (G0 V c) := by
  obtain ⟨-, -, -, -, e4, e5⟩ := idx_facts0 t
  show (cfg0.win 2).cut (grid0.coords t) ((dat0 V c).after 2 t) = _
  rw [after0_2]
  unfold out0_2
  rw [View.canon_unit_zero hz]
  simp only [View.ld_unit_zero (S := S10000x100) hz, View.ld_unit_zero (S := S100x16) hz]
  rw [pay0_eq]
  funext j
  rw [View.read_apply]
  obtain ⟨p, q, rfl⟩ : ∃ (p : Fin 10000) (q : Fin 16), j = ix2 p q := ⟨j 0, j 1, eq_ix2 j⟩
  have h5 : t.val < 5 := lt_of_lt_of_eq t.isLt N_0
  have hr : t.val * 10000 + p.val < 50000 := by have := p.isLt; omega
  have hemb : ((cfg0.win 2).blk t).view.emb (ix2 p q) = (ix2 (⟨t.val * 10000 + p.val, hr⟩ : Fin 50000) q : S50000x16.Idx) := by
    funext a
    apply Fin.ext
    match a with
    | ⟨0, _⟩ => show win0_2.index t 0 * 10000 + 1 * p.val = t.val * 10000 + p.val; rw [e4]; omega
    | ⟨1, _⟩ => show win0_2.index t 1 * 16 + 1 * q.val = q.val; rw [e5]; omega
  rw [hemb]
  unfold G0 relu0 matmulFn
  refine congrArg (fun s : EReal => max s (Ideal.ofBits .f32 0x00000000#32)) (Finset.sum_congr rfl fun k _ => ?_)
  exact congrArg₂ (fun a b : EReal => a * b) (iblk0_rows V c t p k ⟨t.val * 10000 + p.val, hr⟩ rfl) (iblk0_weights V c t k q)

/-- An index of the array is in point t's block iff each coordinate is in the block's range on its axis. -/
theorem mem_blk0 (t : Fin cfg0.N) (i : S50000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v13).slice (win0_2.rect t)).set ↔ _
  rw [View.set_slice_whole, Rect.mem_set_unit]
  exact Iff.rfl

/-- Every index of the output array is in some point's block: row r is in block r / 10000. -/
theorem cover0 (i : S50000x16.Idx) : ∃ t : Fin cfg0.N, (cfg0.win 2).flush t = true ∧ i ∈ ((cfg0.win 2).blk t).view.set := by
  have hi0 : (i 0).val < 50000 := (i 0).isLt
  have hi1 : (i 1).val < 16 := (i 1).isLt
  let t : Fin cfg0.N := ⟨(i 0).val / 10000, lt_of_lt_of_eq (by omega : (i 0).val / 10000 < 5) N_0.symm⟩
  obtain ⟨-, -, -, -, e4, e5⟩ := idx_facts0 t
  refine ⟨t, flush0_2 t, ?_⟩
  rw [mem_blk0]
  intro a
  have ht : t.val = (i 0).val / 10000 := rfl
  match a with
  | ⟨0, _⟩ => show win0_2.index t 0 * 10000 ≤ (i 0).val ∧ (i 0).val < win0_2.index t 0 * 10000 + 10000; rw [e4, ht]; omega
  | ⟨1, _⟩ => show win0_2.index t 1 * 16 ≤ (i 1).val ∧ (i 1).val < win0_2.index t 1 * 16 + 16; rw [e5]; omega

/-- After the first launch its output array holds `G0` of what the launch found in its input arrays. -/
theorem final0 (c : Dev nD) : (dat0 V c).arrAt 2 cfg0.N = G0 V c :=
  (dat0 V c).arrAt_eq_of_cover 2 (G0 V c) (fun t _ => flushed0_eq V c t) (cover0)

end Cert.KernelIdeal.Val

end
-- ==== Proof.KBlocks1.lean ====
/-
  The second launch, from blocks to the array.

  As in the first launch the rows are cut into five blocks of 10000 and the weight matrix is loaded whole. Entry (p, q) of
  what point t writes back reads ROW 10000·t + p of the rows — every entry of it, through the row's maximum and its sum of
  exponentials — times the weights; a log-softmax only looks along rows, so block t of the output is block t of one
  whole-array function, and the five blocks cover the array.
-/
import proofs.«134925_j63848983822675_1_alg».proof.Proof.Gen.KernelIdeal.Frame
import proofs.«134925_j63848983822675_1_alg».proof.Proof.KPay
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The output array of the second launch as one function of its two input arrays. -/
def G1 (c : Dev nD) : Buf (Elt Ideal) ((c : Thread nD τ).loc main_v27) :=
  lsmKer (matmulFn (M := 50000) (K := 16) (N := 40) (V c main_v26) (V c main_arg5))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the rows block at point t is row 10000·t + p of the rows array. -/
theorem iblk1_rows (c : Dev nD) (t : Fin cfg1.N) (p : Fin 10000) (k : Fin 16) (r : Fin 50000) (hr : r.val = t.val * 10000 + p.val) :
    (iblk1 V c 0 t : Vec Ideal S10000x16 .f32) (ix2 p k) = (V c main_v26 : S50000x16.Idx → EReal) (ix2 r k) := by
  obtain ⟨e0, e1, -, -, -, -⟩ := idx_facts1 t
  unfold iblk1
  rw [View.read_apply]
  show V c main_v26 _ = V c main_v26 _
  congr 1
  funext a
  apply Fin.ext
  match a with
  | ⟨0, _⟩ => show win1_0.index t 0 * 10000 + 1 * p.val = r.val; rw [e0, hr]; omega
  | ⟨1, _⟩ => show win1_0.index t 1 * 16 + 1 * k.val = k.val; rw [e1]; omega

/-- The weights block at any point is the weights array. -/
theorem iblk1_weights (c : Dev nD) (t : Fin cfg1.N) (k : Fin 16) (q : Fin 40) :
    (iblk1 V c 1 t : Vec Ideal S16x40 .f32) (ix2 k q) = (V c main_arg5 : S16x40.Idx → EReal) (ix2 k q) := by
  obtain ⟨-, -, e2, e3, -, -⟩ := idx_facts1 t
  unfold iblk1
  rw [View.read_apply]
  show V c main_arg5 _ = V c main_arg5 _
  congr 1
  funext a
  apply Fin.ext
  match a with
  | ⟨0, _⟩ => show win1_1.index t 0 * 16 + 1 * k.val = k.val; rw [e2]; omega
  | ⟨1, _⟩ => show win1_1.index t 1 * 40 + 1 * q.val = q.val; rw [e3]; omega

/-- What point t writes back is block t of `G1`. -/
theorem flushed1_eq (c : Dev nD) (t : Fin cfg1.N) :
    (dat1 V c).flushed 2 t = ((cfg1.win 2).blk t).view.read (Elt Ideal) (G1 V c) := by
  obtain ⟨-, -, -, -, e4, e5⟩ := idx_facts1 t
  show (cfg1.win 2).cut (grid1.coords t) ((dat1 V c).after 2 t) = _
  rw [after1_2]
  unfold out1_2
  rw [View.canon_unit_zero hz1]
  simp only [View.ld_unit_zero (S := S10000x16) hz1, View.ld_unit_zero (S := S16x40) hz1]
  rw [pay1_eq]
  funext j
  rw [View.read_apply]
  obtain ⟨p, q, rfl⟩ : ∃ (p : Fin 10000) (q : Fin 40), j = ix2 p q := ⟨j 0, j 1, eq_ix2 j⟩
  have h5 : t.val < 5 := lt_of_lt_of_eq t.isLt N_1
  have hr : t.val * 10000 + p.val < 50000 := by have := p.isLt; omega
  have hemb : ((cfg1.win 2).blk t).view.emb (ix2 p q) = (ix2 (⟨t.val * 10000 + p.val, hr⟩ : Fin 50000) q : S50000x40.Idx) := by
    funext a
    apply Fin.ext
    match a with
    | ⟨0, _⟩ => show win1_2.index t 0 * 10000 + 1 * p.val = t.val * 10000 + p.val; rw [e4]; omega
    | ⟨1, _⟩ => show win1_2.index t 1 * 40 + 1 * q.val = q.val; rw [e5]; omega
  rw [hemb]
  unfold G1
  refine lsmKer_row (matmulFn (M := 50000) (K := 16) (N := 40) (V c main_v26) (V c main_arg5))
    (matmulFn (M := 10000) (K := 16) (N := 40) (iblk1 V c 0 t) (iblk1 V c 1 t)) ⟨t.val * 10000 + p.val, hr⟩ p (fun l => ?_) q
  rw [matmulFn_ix2, matmulFn_ix2]
  refine Finset.sum_congr rfl fun k _ => ?_
  exact congrArg₂ (fun a b : EReal => a * b) (iblk1_rows V c t p k ⟨t.val * 10000 + p.val, hr⟩ rfl) (iblk1_weights V c t k l)

theorem mem_blk1 (t : Fin cfg1.N) (i : S50000x40.Idx) :
    i ∈ ((cfg1.win 2).blk t).view.set ↔ ∀ a : Fin 2, win1_2.index t a * S10000x40.size a ≤ (i a).val ∧ (i a).val < win1_2.index t a * S10000x40.size a + S10000x40.size a := by
  show i ∈ ((View.whole main_v27).slice (win1_2.rect t)).set ↔ _
  rw [View.set_slice_whole, Rect.mem_set_unit]
  exact Iff.rfl

theorem cover1 (i : S50000x40.Idx) : ∃ t : Fin cfg1.N, (cfg1.win 2).flush t = true ∧ i ∈ ((cfg1.win 2).blk t).view.set := by
  have hi0 : (i 0).val < 50000 := (i 0).isLt
  have hi1 : (i 1).val < 40 := (i 1).isLt
  let t : Fin cfg1.N := ⟨(i 0).val / 10000, lt_of_lt_of_eq (by omega : (i 0).val / 10000 < 5) N_1.symm⟩
  obtain ⟨-, -, -, -, e4, e5⟩ := idx_facts1 t
  refine ⟨t, flush1_2 t, ?_⟩
  rw [mem_blk1]
  intro a
  have ht : t.val = (i 0).val / 10000 := rfl
  match a with
  | ⟨0, _⟩ => show win1_2.index t 0 * 10000 ≤ (i 0).val ∧ (i 0).val < win1_2.index t 0 * 10000 + 10000; rw [e4, ht]; omega
  | ⟨1, _⟩ => show win1_2.index t 1 * 40 ≤ (i 1).val ∧ (i 1).val < win1_2.index t 1 * 40 + 40; rw [e5]; omega

/-- After the second launch its output array holds `G1` of what the launch found in its input arrays. -/
theorem final1 (c : Dev nD) : (dat1 V c).arrAt 2 cfg1.N = G1 V c :=
  (dat1 V c).arrAt_eq_of_cover 2 (G1 V c) (fun t _ => flushed1_eq V c t) (cover1)

end Cert.KernelIdeal.Val

end
-- ==== Proof.KHost.lean ====
/-
  The idealized kernel's result as one function of the six argument arrays.

  Between the launch and the first kernel the host runs a round of message passing on the features; the first kernel
  leaves `relu0 (· × W1)` of that in its output array; the host runs a second round on it; the second kernel leaves the
  log-softmax, in the kernel's way of writing it, of `· × W2`. The index lists, the edge weights and the two weight
  matrices are read by every segment as they were launched.
-/
import proofs.«134925_j63848983822675_1_alg».proof.Proof.Gen.KernelIdeal.Frame
import proofs.«134925_j63848983822675_1_alg».proof.Proof.KBlocks0
import proofs.«134925_j63848983822675_1_alg».proof.Proof.KBlocks1
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo Cert.Gcn

variable (m : (ℓ : Loc nD τ sig) → Buf (Elt Ideal) ℓ) (ρ : Dev nD → PrngReg)

/-! ## Before the first launch -/

theorem W1_arg1 (c : Dev nD) : W1 m ρ c (Proc.devRef Proc.tc main_arg1) = m ((c.tc : Thread nD τ).loc main_arg1) := by
  show StableHlo.after hostOps0 (W0 m ρ c) (Proc.devRef Proc.tc main_arg1) = _
  dsimp only [hostOps0]; after_results_simp <;> rfl
theorem W1_arg2 (c : Dev nD) : W1 m ρ c (Proc.devRef Proc.tc main_arg2) = m ((c.tc : Thread nD τ).loc main_arg2) := by
  show StableHlo.after hostOps0 (W0 m ρ c) (Proc.devRef Proc.tc main_arg2) = _
  dsimp only [hostOps0]; after_results_simp <;> rfl
theorem W1_arg3 (c : Dev nD) : W1 m ρ c (Proc.devRef Proc.tc main_arg3) = m ((c.tc : Thread nD τ).loc main_arg3) := by
  show StableHlo.after hostOps0 (W0 m ρ c) (Proc.devRef Proc.tc main_arg3) = _
  dsimp only [hostOps0]; after_results_simp <;> rfl
theorem W1_arg4 (c : Dev nD) : W1 m ρ c (Proc.devRef Proc.tc main_arg4) = m ((c.tc : Thread nD τ).loc main_arg4) := by
  show StableHlo.after hostOps0 (W0 m ρ c) (Proc.devRef Proc.tc main_arg4) = _
  dsimp only [hostOps0]; after_results_simp <;> rfl
theorem W1_arg5 (c : Dev nD) : W1 m ρ c (Proc.devRef Proc.tc main_arg5) = m ((c.tc : Thread nD τ).loc main_arg5) := by
  show StableHlo.after hostOps0 (W0 m ρ c) (Proc.devRef Proc.tc main_arg5) = _
  dsimp only [hostOps0]; after_results_simp <;> rfl

/-- The first launch finds, in its rows array, the first round of message passing on the features. -/
theorem V1_v12 (c : Dev nD) : (V1 m ρ c main_v12 : FVec Ideal S50000x100 .f32) =
    (Cert.Gcn.spmm gather_S50000x100_S800000x1_S800000x100_1_0_n_n_0_1_1100 scatter_S50000x100_S800000x1_S800000x100_1_0_0_1
      bcast_S_S50000x100 bcast_S800000_S800000x1_0 bcast_S800000x1_S800000x100_0_1 bcast_S_S800000 (m ((c.tc : Thread nD τ).loc main_arg1)) (m ((c.tc : Thread nD τ).loc main_arg2)) (m ((c.tc : Thread nD τ).loc main_arg3)) (m ((c.tc : Thread nD τ).loc main_arg0))) := by
  show StableHlo.after hostOps0 (W0 m ρ c) (Proc.devRef Proc.tc main_v12) = _
  dsimp only [hostOps0]; after_results_simp
  rfl

/-! ## Between the launches -/

theorem W2_arg1 (c : Dev nD) : W2 m ρ c (Proc.devRef Proc.tc main_arg1) = m ((c.tc : Thread nD τ).loc main_arg1) :=
  (W2_of_ne m ρ c main_arg1 (by decide)).trans (W1_arg1 m ρ c)
theorem W2_arg2 (c : Dev nD) : W2 m ρ c (Proc.devRef Proc.tc main_arg2) = m ((c.tc : Thread nD τ).loc main_arg2) :=
  (W2_of_ne m ρ c main_arg2 (by decide)).trans (W1_arg2 m ρ c)
theorem W2_arg3 (c : Dev nD) : W2 m ρ c (Proc.devRef Proc.tc main_arg3) = m ((c.tc : Thread nD τ).loc main_arg3) :=
  (W2_of_ne m ρ c main_arg3 (by decide)).trans (W1_arg3 m ρ c)
theorem W2_arg5 (c : Dev nD) : W2 m ρ c (Proc.devRef Proc.tc main_arg5) = m ((c.tc : Thread nD τ).loc main_arg5) :=
  (W2_of_ne m ρ c main_arg5 (by decide)).trans (W1_arg5 m ρ c)

/-- After the first launch its output array holds `relu0 (· × W1)` of the first round. -/
theorem W2_v13 (c : Dev nD) : (W2 m ρ c (Proc.devRef Proc.tc main_v13) : FVec Ideal S50000x16 .f32) =
    relu0 (matmulFn (M := 50000) (K := 100) (N := 16) (Cert.Gcn.spmm gather_S50000x100_S800000x1_S800000x100_1_0_n_n_0_1_1100 scatter_S50000x100_S800000x1_S800000x100_1_0_0_1
      bcast_S_S50000x100 bcast_S800000_S800000x1_0 bcast_S800000x1_S800000x100_0_1 bcast_S_S800000 (m ((c.tc : Thread nD τ).loc main_arg1)) (m ((c.tc : Thread nD τ).loc main_arg2)) (m ((c.tc : Thread nD τ).loc main_arg3)) (m ((c.tc : Thread nD τ).loc main_arg0))) (m ((c.tc : Thread nD τ).loc main_arg4))) := by
  refine (W2_arr m ρ c 2).trans ((final0 (V1 m ρ) c).trans ?_)
  unfold G0
  rw [V1_v12 m ρ c]
  show relu0 (matmulFn _ (W1 m ρ c (Proc.devRef Proc.tc main_arg4))) = _
  rw [W1_arg4 m ρ c]

/-- The second launch finds, in its rows array, the second round of message passing on the first kernel's output. -/
theorem V3_v26 (c : Dev nD) : (V3 m ρ c main_v26 : FVec Ideal S50000x16 .f32) =
    (Cert.Gcn.spmm gather_S50000x16_S800000x1_S800000x16_1_0_n_n_0_1_116 scatter_S50000x16_S800000x1_S800000x16_1_0_0_1
      bcast_S_S50000x16 bcast_S800000_S800000x1_0 bcast_S800000x1_S800000x16_0_1 bcast_S_S800000 (m ((c.tc : Thread nD τ).loc main_arg1)) (m ((c.tc : Thread nD τ).loc main_arg2)) (m ((c.tc : Thread nD τ).loc main_arg3)) (W2 m ρ c (Proc.devRef Proc.tc main_v13) : FVec Ideal S50000x16 .f32)) := by
  show StableHlo.after hostOps1 (W2 m ρ c) (Proc.devRef Proc.tc main_v26) = _
  dsimp only [hostOps1]; after_results_simp
  rw [W2_arg1 m ρ c, W2_arg2 m ρ c, W2_arg3 m ρ c]
  rfl

theorem V3_arg5 (c : Dev nD) : V3 m ρ c main_arg5 = m ((c.tc : Thread nD τ).loc main_arg5) := by
  show StableHlo.after hostOps1 (W2 m ρ c) (Proc.devRef Proc.tc main_arg5) = _
  dsimp only [hostOps1]; after_results_simp
  exact W2_arg5 m ρ c

/-! ## The result -/

/-- The idealized kernel's result as a function of the six argument arrays. -/
def kerOut (x0 : FVec Ideal S50000x100 .f32) (x1 x2 : IVec S800000 32) (x3 : FVec Ideal S800000 .f32)
    (x4 : FVec Ideal S100x16 .f32) (x5 : FVec Ideal S16x40 .f32) : FVec Ideal S50000x40 .f32 :=
  lsmKer (matmulFn (M := 50000) (K := 16) (N := 40)
    (Cert.Gcn.spmm gather_S50000x16_S800000x1_S800000x16_1_0_n_n_0_1_116 scatter_S50000x16_S800000x1_S800000x16_1_0_0_1
      bcast_S_S50000x16 bcast_S800000_S800000x1_0 bcast_S800000x1_S800000x16_0_1 bcast_S_S800000 x1 x2 x3 (relu0 (matmulFn (M := 50000) (K := 100) (N := 16) (Cert.Gcn.spmm gather_S50000x100_S800000x1_S800000x100_1_0_n_n_0_1_1100 scatter_S50000x100_S800000x1_S800000x100_1_0_0_1
      bcast_S_S50000x100 bcast_S800000_S800000x1_0 bcast_S800000x1_S800000x100_0_1 bcast_S_S800000 x1 x2 x3 x0) x4))) x5)

/-- After the last segment the result buffer holds `kerOut` of the argument arrays. -/
theorem W4_v27 (c : Dev nD) : (W4 m ρ c (Proc.devRef Proc.tc main_v27) : FVec Ideal S50000x40 .f32) =
    kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W4_arr m ρ c 2).trans ((final1 (V3 m ρ) c).trans ?_)
  unfold G1 kerOut
  rw [V3_v26 m ρ c, V3_arg5 m ρ c, W2_v13 m ρ c]

end Cert.KernelIdeal.Val

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.HostForms.lean ====
/-
  The host program's operations as the whole-array functions they compute, on the extended reals.

  A plain matrix product on the host is `matmulFn`; a maximum with a broadcast zero is `relu0`; and the host's
  log-softmax of every row — the row maximum folded from −∞ (and once more compared with −∞), the shifted entries, their
  exponentials summed from zero, the log of the sum, both columns broadcast back along the rows — is `lsmRef`.
-/
import Idealize.ShloMosaic.PureOps.Ideal.Laws
import Idealize.ShloMosaic.Lib.ValueIdx
import Idealize.ShloMosaic.Lib.Pipeline.Value
import proofs.«134925_j63848983822675_1_alg».proof.Proof.Spec
import proofs.«134925_j63848983822675_1_alg».proof.Proof.LibHostReads

noncomputable section

open scoped BigOperators

namespace Cert.Gcn

open Idealize.ShloMosaic Idealize.ShloMosaic.ValueIdx Cert.LibRealEntries Cert.LibRowGatherScatter Cert.RowSoftmax

/-- The host's plain matrix product is the product, entry by entry. -/
theorem hostDot_eq (M K N : Nat) (prec : Option ContractPrecision)
    (a : FVec Ideal ⟨2, ![M, K]⟩ .f32) (b : FVec Ideal ⟨2, ![K, N]⟩ .f32) :
    Host.dotGeneral (F := Ideal) (DotDims.plain M K N) prec a b = matmulFn a b := by
  funext y
  obtain ⟨i, j, rfl⟩ : ∃ (i : Fin M) (j : Fin N), y = ix2 i j := ⟨y 0, y 1, eq_ix2 y⟩
  exact Cert.LibHostReads.dotGeneral_plain_apply M K N prec a b i j

/-- The maximum with a broadcast zero is `relu0`. -/
theorem hostRelu_eq {s : Shape} (hb : Sc.BroadcastsInDim s (![] : Fin 0 → Fin s.rank)) (a : FVec Ideal s .f32) :
    maximumf a (broadcastInDim s ![] hb (constant (F := Ideal) Sc .f32 0x00000000#32)) = relu0 a := by
  funext y
  show max (a y) (broadcastInDim s ![] hb (constant (F := Ideal) Sc .f32 0x00000000#32) y) = _
  rw [broadcastInDim_apply _ hb _ y ix0 (fun a => a.elim0)]
  rfl

section Lsm

variable {a b : Nat} (hr : (⟨2, ![a, b]⟩ : Shape).ReducesTo [1] ⟨1, ![a]⟩) (hu : 0 < Sc.numel)
  (hb0 : Sc.BroadcastsInDim ⟨1, ![a]⟩ ![])
  (hb1 : (⟨1, ![a]⟩ : Shape).BroadcastsInDim ⟨2, ![a, 1]⟩ ![0])
  (hb2 : (⟨2, ![a, 1]⟩ : Shape).BroadcastsInDim ⟨2, ![a, b]⟩ ![0, 1])

/-- The host's row maxima, broadcast back along the rows. -/
def hostRowMaxB (x : FVec Ideal ⟨2, ![a, b]⟩ .f32) : FVec Ideal ⟨2, ![a, b]⟩ .f32 :=
  broadcastInDim ⟨2, ![a, b]⟩ ![0, 1] hb2 (broadcastInDim ⟨2, ![a, 1]⟩ ![0] hb1
    (maximumf (broadcastInDim ⟨1, ![a]⟩ ![] hb0 (constant (F := Ideal) Sc .f32 0xFF800000#32))
      (Host.reduce FloatOps.maximumf x (constant (F := Ideal) Sc .f32 0xFF800000#32) hr hu)))

/-- The host's log-softmax of every row. -/
def hostLsm (x : FVec Ideal ⟨2, ![a, b]⟩ .f32) : FVec Ideal ⟨2, ![a, b]⟩ .f32 :=
  subf (subf x (hostRowMaxB hr hu hb0 hb1 hb2 x))
    (broadcastInDim ⟨2, ![a, b]⟩ ![0, 1] hb2 (Host.log (broadcastInDim ⟨2, ![a, 1]⟩ ![0] hb1
      (Host.reduceAdd (Host.exp (subf x (hostRowMaxB hr hu hb0 hb1 hb2 x))) (constant (F := Ideal) Sc .f32 0x00000000#32) hr hu))))

variable (ha : a ≠ 1) (hr' : (⟨2, ![a, b]⟩ : Shape).Reduces [1] ⟨1, ![a]⟩)

include ha hr' in
/-- The broadcast row maximum at (i, j) is the greatest entry of row i. -/
theorem hostRowMaxB_apply (x : FVec Ideal ⟨2, ![a, b]⟩ .f32) (i : Fin a) (j : Fin b) :
    hostRowMaxB hr hu hb0 hb1 hb2 x (ix2 i j) = rowMax (fun k : Fin b => x (ix2 i k)) := by
  unfold hostRowMaxB
  rw [bcast_col_apply ha _ hb1 hb2 i j]
  show max (broadcastInDim ⟨1, ![a]⟩ ![] hb0 (constant (F := Ideal) Sc .f32 0xFF800000#32) (ix1 i))
    (Host.reduce FloatOps.maximumf x (constant (F := Ideal) Sc .f32 0xFF800000#32) hr hu (ix1 i)) = _
  rw [broadcastInDim_apply _ hb0 _ (ix1 i) ix0 (fun a => a.elim0), constant_apply, max_negInf]
  refine (Host.reduce_eq_fold_single FloatOps.maximumf x _ hr hr' hu (ix1 i)).trans ?_
  unfold rowMax
  refine congrArg (fun f => Finset.fold max _ f Finset.univ) (funext fun l => congrArg x (funext fun e => Fin.ext ?_))
  match e with
  | ⟨0, _⟩ => rfl
  | ⟨1, _⟩ => rfl

include ha hr' in
/-- The host's log-softmax is `lsmRef`. -/
theorem hostLsm_eq (x : FVec Ideal ⟨2, ![a, b]⟩ .f32) : hostLsm hr hu hb0 hb1 hb2 x = lsmRef x := by
  funext y
  obtain ⟨i, j, rfl⟩ : ∃ (i : Fin a) (j : Fin b), y = ix2 i j := ⟨y 0, y 1, eq_ix2 y⟩
  unfold hostLsm lsmRef
  show x (ix2 i j) - hostRowMaxB hr hu hb0 hb1 hb2 x (ix2 i j)
    - broadcastInDim ⟨2, ![a, b]⟩ ![0, 1] hb2 (Host.log (broadcastInDim ⟨2, ![a, 1]⟩ ![0] hb1
      (Host.reduceAdd (Host.exp (subf x (hostRowMaxB hr hu hb0 hb1 hb2 x))) (constant (F := Ideal) Sc .f32 0x00000000#32) hr hu))) (ix2 i j) = _
  rw [hostRowMaxB_apply hr hu hb0 hb1 hb2 ha hr' x i j]
  refine congrArg (x (ix2 i j) - rowMax (fun k : Fin b => x (ix2 i k)) - ·) ?_
  refine (broadcastInDim_apply _ hb2 _ (ix2 i j) (ix2 i (0 : Fin 1)) ?_).trans ?_
  · intro e
    match e with
    | ⟨0, _⟩ => show i.val = if a = 1 then 0 else i.val; rw [if_neg ha]
    | ⟨1, _⟩ => show (0 : Fin 1).val = if (1 : Nat) = 1 then 0 else j.val; rw [if_pos rfl]; rfl
  show Ideal.log (broadcastInDim ⟨2, ![a, 1]⟩ ![0] hb1
      (Host.reduceAdd (Host.exp (subf x (hostRowMaxB hr hu hb0 hb1 hb2 x))) (constant (F := Ideal) Sc .f32 0x00000000#32) hr hu) (ix2 i (0 : Fin 1))) = _
  refine congrArg Ideal.log ?_
  refine (broadcastInDim_apply _ hb1 _ (ix2 i (0 : Fin 1)) (ix1 i) ?_).trans ?_
  · intro e
    match e with
    | ⟨0, _⟩ => show i.val = if a = 1 then 0 else i.val; rw [if_neg ha]
  show Ideal.hostReduceAdd hr (Host.exp (subf x (hostRowMaxB hr hu hb0 hb1 hb2 x))) (Ideal.ofBits .f32 0x00000000#32) (ix1 i) = _
  rw [Ideal.hostReduceAdd_single hr hr' _ _ (ix1 i), Ideal.ofBits_zero_f32, zero_add]
  refine Finset.sum_congr rfl fun l _ => ?_
  have e : hr'.lift (ix1 i) l = ix2 i l := funext fun e => Fin.ext (by
    match e with
    | ⟨0, _⟩ => rfl
    | ⟨1, _⟩ => rfl)
  rw [e]
  show Ideal.exp (x (ix2 i l) - hostRowMaxB hr hu hb0 hb1 hb2 x (ix2 i l)) = _
  rw [hostRowMaxB_apply hr hu hb0 hb1 hb2 ha hr' x i l]
  rfl

end Lsm

end Cert.Gcn

end
-- ==== Proof.RefRun.lean ====
/-
  The reference program's run, read back in four stretches.

  The program is one line of host operations: a round of message passing, a matrix product and a maximum with zero; a
  second round and a second matrix product; the log-softmax of every row. Its buffers after the whole line are the
  buffers after the last stretch, taken from the buffers after the one before, and so on back to the launch; each stretch
  is read from ARBITRARY contents `W`, so no stretch's result is ever spelt out inside the next one's. What the result
  buffer ends holding is the composition `hostLsm ∘ (· × W2) ∘ spmm ∘ relu ∘ (· × W1) ∘ spmm` of the argument arrays.
-/
import proofs.«134925_j63848983822675_1_alg».proof.Proof.Gen.ReferenceIdeal
import proofs.«134925_j63848983822675_1_alg».proof.Proof.Spec
import proofs.«134925_j63848983822675_1_alg».proof.Proof.HostForms
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The first round of message passing and the first matrix product. -/
abbrev opsA : List (HloOp τ sig (Elt F)) :=
  [ unary main_arg3 main_v0 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg1 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg1 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg1 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_arg0 main_v6 main_v7 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    unary main_v0 main_v8 (broadcastInDim S800000x100 ![0, 1] bcast_S800000x1_S800000x100_0_1 : (⟨S800000x1, .f32⟩ : BufTy).Contents (Elt F) → (⟨S800000x100, .f32⟩ : BufTy).Contents (Elt F)),
    binary main_v8 main_v7 main_v9 (mulf : (⟨S800000x100, .f32⟩ : BufTy).Contents (Elt F) → (⟨S800000x100, .f32⟩ : BufTy).Contents (Elt F) → (⟨S800000x100, .f32⟩ : BufTy).Contents (Elt F)),
    nullary main_cst (constant S_ .f32 0x00000000#32),
    unary main_cst main_v10 (broadcastInDim S50000x100 ![] bcast_S_S50000x100 : (⟨S_, .f32⟩ : BufTy).Contents (Elt F) → (⟨S50000x100, .f32⟩ : BufTy).Contents (Elt F)),
    unary main_arg2 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    binary main_v12 main_arg4 main_v13 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)) ]

/-- The maximum with zero. -/
abbrev opsRelu : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x16, .f32⟩) main_call0_v0) (broadcastInDim S50000x16 ![] bcast_S_S50000x16),
    TRef.binary (TRef.of (T := ⟨S50000x16, .f32⟩) main_v13) (TRef.of (T := ⟨S50000x16, .f32⟩) main_call0_v0) (TRef.of (T := ⟨S50000x16, .f32⟩) main_v14) maximumf ]

/-- The second round of message passing and the second matrix product. -/
abbrev opsB : List (HloOp τ sig (Elt F)) :=
  [ unary main_arg3 main_v15 (broadcastInDim S800000x1 ![0] bcast_S800000_S800000x1_0 : (⟨S800000, .f32⟩ : BufTy).Contents (Elt F) → (⟨S800000x1, .f32⟩ : BufTy).Contents (Elt F)),
    nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_arg1 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_arg1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v14 main_v21 main_v22 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v15 main_v23 (broadcastInDim S800000x16 ![0, 1] bcast_S800000x1_S800000x16_0_1 : (⟨S800000x1, .f32⟩ : BufTy).Contents (Elt F) → (⟨S800000x16, .f32⟩ : BufTy).Contents (Elt F)),
    binary main_v23 main_v22 main_v24 (mulf : (⟨S800000x16, .f32⟩ : BufTy).Contents (Elt F) → (⟨S800000x16, .f32⟩ : BufTy).Contents (Elt F) → (⟨S800000x16, .f32⟩ : BufTy).Contents (Elt F)),
    nullary main_cst_3 (constant S_ .f32 0x00000000#32),
    unary main_cst_3 main_v25 (broadcastInDim S50000x16 ![] bcast_S_S50000x16 : (⟨S_, .f32⟩ : BufTy).Contents (Elt F) → (⟨S50000x16, .f32⟩ : BufTy).Contents (Elt F)),
    unary main_arg2 main_v26 (broadcastInDim S800000x1 ![0] bcast_S800000_S800000x1_0 : (⟨S800000, .i32⟩ : BufTy).Contents (Elt F) → (⟨S800000x1, .i32⟩ : BufTy).Contents (Elt F)),
    ternary main_v25 main_v26 main_v24 main_v27 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    binary main_v27 main_arg5 main_v28 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)) ]

/-- The log-softmax of every row. -/
abbrev opsLsm : List (HloOp τ sig (Elt F)) :=
  [ TRef.nullary (TRef.of (T := ⟨S_, .f32⟩) main_call1_cst) (constant S_ .f32 0xFF800000#32),
    TRef.binary (TRef.of (T := ⟨S50000x40, .f32⟩) main_v28) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v28) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v29) subf ]

/-- The whole line, in order. -/
abbrev ops : List (HloOp τ sig (Elt F)) :=
  [ unary main_arg3 main_v0 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v1 (broadcastInDim S800000 ![] bcast_S_S800000 : (⟨S_, .i32⟩ : BufTy).Contents (Elt F) → (⟨S800000, .i32⟩ : BufTy).Contents (Elt F)),
    binary main_arg1 main_v1 main_v2 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v3 (broadcastInDim S800000 ![] bcast_S_S800000 : (⟨S_, .i32⟩ : BufTy).Contents (Elt F) → (⟨S800000, .i32⟩ : BufTy).Contents (Elt F)),
    binary main_arg1 main_v3 main_v4 (addi : (⟨S800000, .i32⟩ : BufTy).Contents (Elt F) → (⟨S800000, .i32⟩ : BufTy).Contents (Elt F) → (⟨S800000, .i32⟩ : BufTy).Contents (Elt F)),
    ternary main_v2 main_v4 main_arg1 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v5 main_v6 (broadcastInDim S800000x1 ![0] bcast_S800000_S800000x1_0 : (⟨S800000, .i32⟩ : BufTy).Contents (Elt F) → (⟨S800000x1, .i32⟩ : BufTy).Contents (Elt F)),
    binary main_arg0 main_v6 main_v7 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    unary main_v0 main_v8 (broadcastInDim S800000x100 ![0, 1] bcast_S800000x1_S800000x100_0_1 : (⟨S800000x1, .f32⟩ : BufTy).Contents (Elt F) → (⟨S800000x100, .f32⟩ : BufTy).Contents (Elt F)),
    binary main_v8 main_v7 main_v9 (mulf : (⟨S800000x100, .f32⟩ : BufTy).Contents (Elt F) → (⟨S800000x100, .f32⟩ : BufTy).Contents (Elt F) → (⟨S800000x100, .f32⟩ : BufTy).Contents (Elt F)),
    nullary main_cst (constant S_ .f32 0x00000000#32),
    unary main_cst main_v10 (broadcastInDim S50000x100 ![] bcast_S_S50000x100 : (⟨S_, .f32⟩ : BufTy).Contents (Elt F) → (⟨S50000x100, .f32⟩ : BufTy).Contents (Elt F)),
    unary main_arg2 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    binary main_v12 main_arg4 main_v13 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x16, .f32⟩) main_call0_v0) (broadcastInDim S50000x16 ![] bcast_S_S50000x16),
    TRef.binary (TRef.of (T := ⟨S50000x16, .f32⟩) main_v13) (TRef.of (T := ⟨S50000x16, .f32⟩) main_call0_v0) (TRef.of (T := ⟨S50000x16, .f32⟩) main_v14) maximumf,
    unary main_arg3 main_v15 (broadcastInDim S800000x1 ![0] bcast_S800000_S800000x1_0 : (⟨S800000, .f32⟩ : BufTy).Contents (Elt F) → (⟨S800000x1, .f32⟩ : BufTy).Contents (Elt F)),
    nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_arg1 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_arg1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v14 main_v21 main_v22 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v15 main_v23 (broadcastInDim S800000x16 ![0, 1] bcast_S800000x1_S800000x16_0_1 : (⟨S800000x1, .f32⟩ : BufTy).Contents (Elt F) → (⟨S800000x16, .f32⟩ : BufTy).Contents (Elt F)),
    binary main_v23 main_v22 main_v24 (mulf : (⟨S800000x16, .f32⟩ : BufTy).Contents (Elt F) → (⟨S800000x16, .f32⟩ : BufTy).Contents (Elt F) → (⟨S800000x16, .f32⟩ : BufTy).Contents (Elt F)),
    nullary main_cst_3 (constant S_ .f32 0x00000000#32),
    unary main_cst_3 main_v25 (broadcastInDim S50000x16 ![] bcast_S_S50000x16 : (⟨S_, .f32⟩ : BufTy).Contents (Elt F) → (⟨S50000x16, .f32⟩ : BufTy).Contents (Elt F)),
    unary main_arg2 main_v26 (broadcastInDim S800000x1 ![0] bcast_S800000_S800000x1_0 : (⟨S800000, .i32⟩ : BufTy).Contents (Elt F) → (⟨S800000x1, .i32⟩ : BufTy).Contents (Elt F)),
    ternary main_v25 main_v26 main_v24 main_v27 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    binary main_v27 main_arg5 main_v28 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v28) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v28) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v29) subf ]

theorem ops_split : (ops : List (HloOp τ sig (Elt F))) = opsA ++ (opsRelu ++ (opsB ++ opsLsm)) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The buffers after two stretches in a row are the buffers after the second, from the buffers after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Contents at a value's type and at its buffer's type -/

/-- Contents carried to a buffer's type and back are the contents. -/
theorem ofBuf_toBuf {Val : EltTy → Type} {T : BufTy} (x : TRef sig T) (v : T.Contents Val) : x.ofBuf (x.toBuf v) = v := by
  obtain ⟨r, h, h2, h3⟩ := x
  subst h
  rfl

/-- At the buffers of the two rank-2 arrays the log-softmax reads and writes the carrying is the identity. -/
theorem ofBuf_v28 (v : (Proc.devRef (τ := τ) Proc.tc main_v28).ty.Contents (Elt Ideal)) :
    (TRef.of (T := ⟨S50000x40, .f32⟩) main_v28).ofBuf v = v := rfl
theorem ofBuf_v29 (v : (Proc.devRef (τ := τ) Proc.tc main_v29).ty.Contents (Elt Ideal)) :
    (TRef.of (T := ⟨S50000x40, .f32⟩) main_v29).ofBuf v = v := rfl

/-! ## Each stretch, read from arbitrary contents -/

section Read

variable (W : Valuation τ sig (Elt Ideal))

/-- The first stretch leaves, in its last buffer, the first round's rows times `W1`. -/
theorem A_v13 : (after (opsA (F := Ideal)) W (Proc.devRef Proc.tc main_v13) : FVec Ideal S50000x16 .f32) =
    (Host.dotGeneral (F := Ideal) (φ₁ := .f32) (φ₂ := .f32) dot_S50000x100_S100x16_S50000x16_1_0_0_1_n_n none (Cert.Gcn.spmm gather_S50000x100_S800000x1_S800000x100_1_0_n_n_0_1_1100 scatter_S50000x100_S800000x1_S800000x100_1_0_0_1
        bcast_S_S50000x100 bcast_S800000_S800000x1_0 bcast_S800000x1_S800000x100_0_1 bcast_S_S800000 (W (Proc.devRef Proc.tc main_arg1) : IVec S800000 32) (W (Proc.devRef Proc.tc main_arg2) : IVec S800000 32) (W (Proc.devRef Proc.tc main_arg3) : FVec Ideal S800000 .f32) (W (Proc.devRef Proc.tc main_arg0) : FVec Ideal S50000x100 .f32)) (W (Proc.devRef Proc.tc main_arg4) : FVec Ideal S100x16 .f32)) := by
  after_results_simp
  rfl

theorem A_arg1 : after (opsA (F := Ideal)) W (Proc.devRef Proc.tc main_arg1) = W (Proc.devRef Proc.tc main_arg1) := by after_results_simp
theorem A_arg2 : after (opsA (F := Ideal)) W (Proc.devRef Proc.tc main_arg2) = W (Proc.devRef Proc.tc main_arg2) := by after_results_simp
theorem A_arg3 : after (opsA (F := Ideal)) W (Proc.devRef Proc.tc main_arg3) = W (Proc.devRef Proc.tc main_arg3) := by after_results_simp
theorem A_arg5 : after (opsA (F := Ideal)) W (Proc.devRef Proc.tc main_arg5) = W (Proc.devRef Proc.tc main_arg5) := by after_results_simp

/-- The second stretch takes the maximum with zero. -/
theorem R_v14 : (after (opsRelu (F := Ideal)) W (Proc.devRef Proc.tc main_v14) : FVec Ideal S50000x16 .f32) =
    (maximumf (W (Proc.devRef Proc.tc main_v13) : FVec Ideal S50000x16 .f32) (broadcastInDim S50000x16 ![] bcast_S_S50000x16 (constant (F := Ideal) S_ .f32 0x00000000#32))) := by
  after_results_simp
  rfl

theorem R_arg1 : after (opsRelu (F := Ideal)) W (Proc.devRef Proc.tc main_arg1) = W (Proc.devRef Proc.tc main_arg1) := by after_results_simp
theorem R_arg2 : after (opsRelu (F := Ideal)) W (Proc.devRef Proc.tc main_arg2) = W (Proc.devRef Proc.tc main_arg2) := by after_results_simp
theorem R_arg3 : after (opsRelu (F := Ideal)) W (Proc.devRef Proc.tc main_arg3) = W (Proc.devRef Proc.tc main_arg3) := by after_results_simp
theorem R_arg5 : after (opsRelu (F := Ideal)) W (Proc.devRef Proc.tc main_arg5) = W (Proc.devRef Proc.tc main_arg5) := by after_results_simp

/-- The third stretch: the second round's rows times `W2`. -/
theorem B_v28 : (after (opsB (F := Ideal)) W (Proc.devRef Proc.tc main_v28) : FVec Ideal S50000x40 .f32) =
    (Host.dotGeneral (F := Ideal) (φ₁ := .f32) (φ₂ := .f32) dot_S50000x16_S16x40_S50000x40_1_0_0_1_n_n none (Cert.Gcn.spmm gather_S50000x16_S800000x1_S800000x16_1_0_n_n_0_1_116 scatter_S50000x16_S800000x1_S800000x16_1_0_0_1
        bcast_S_S50000x16 bcast_S800000_S800000x1_0 bcast_S800000x1_S800000x16_0_1 bcast_S_S800000 (W (Proc.devRef Proc.tc main_arg1) : IVec S800000 32) (W (Proc.devRef Proc.tc main_arg2) : IVec S800000 32) (W (Proc.devRef Proc.tc main_arg3) : FVec Ideal S800000 .f32) (W (Proc.devRef Proc.tc main_v14) : FVec Ideal S50000x16 .f32)) (W (Proc.devRef Proc.tc main_arg5) : FVec Ideal S16x40 .f32)) := by
  after_results_simp
  rfl

/-- The last stretch: the log-softmax of every row. -/
theorem L_v29 : (TRef.of (T := ⟨S50000x40, .f32⟩) main_v29).ofBuf (after (opsLsm (F := Ideal)) W (Proc.devRef Proc.tc main_v29)) =
    (Cert.Gcn.hostLsm reducesTo_S50000x40_S50000_d1 h_S_ bcast_S_S50000 bcast_S50000_S50000x1_0 bcast_S50000x1_S50000x40_0_1 ((TRef.of (T := ⟨S50000x40, .f32⟩) main_v28).ofBuf (W (Proc.devRef Proc.tc main_v28)))) := by
  after_results_simp
  unfold Cert.Gcn.hostLsm Cert.Gcn.hostRowMaxB
  simp only [ofBuf_toBuf]
  first | done | rfl

/-- The whole line's result buffer: the composition of the four stretches. -/
theorem result_eq : (after (ops (F := Ideal)) W (Proc.devRef Proc.tc main_v29) : FVec Ideal S50000x40 .f32) =
    (Cert.Gcn.hostLsm reducesTo_S50000x40_S50000_d1 h_S_ bcast_S_S50000 bcast_S50000_S50000x1_0 bcast_S50000x1_S50000x40_0_1 (Host.dotGeneral (F := Ideal) (φ₁ := .f32) (φ₂ := .f32) dot_S50000x16_S16x40_S50000x40_1_0_0_1_n_n none (Cert.Gcn.spmm gather_S50000x16_S800000x1_S800000x16_1_0_n_n_0_1_116 scatter_S50000x16_S800000x1_S800000x16_1_0_0_1
        bcast_S_S50000x16 bcast_S800000_S800000x1_0 bcast_S800000x1_S800000x16_0_1 bcast_S_S800000 (W (Proc.devRef Proc.tc main_arg1) : IVec S800000 32) (W (Proc.devRef Proc.tc main_arg2) : IVec S800000 32) (W (Proc.devRef Proc.tc main_arg3) : FVec Ideal S800000 .f32) (maximumf (Host.dotGeneral (F := Ideal) (φ₁ := .f32) (φ₂ := .f32) dot_S50000x100_S100x16_S50000x16_1_0_0_1_n_n none (Cert.Gcn.spmm gather_S50000x100_S800000x1_S800000x100_1_0_n_n_0_1_1100 scatter_S50000x100_S800000x1_S800000x100_1_0_0_1
        bcast_S_S50000x100 bcast_S800000_S800000x1_0 bcast_S800000x1_S800000x100_0_1 bcast_S_S800000 (W (Proc.devRef Proc.tc main_arg1) : IVec S800000 32) (W (Proc.devRef Proc.tc main_arg2) : IVec S800000 32) (W (Proc.devRef Proc.tc main_arg3) : FVec Ideal S800000 .f32) (W (Proc.devRef Proc.tc main_arg0) : FVec Ideal S50000x100 .f32)) (W (Proc.devRef Proc.tc main_arg4) : FVec Ideal S100x16 .f32)) (broadcastInDim S50000x16 ![] bcast_S_S50000x16 (constant (F := Ideal) S_ .f32 0x00000000#32)))) (W (Proc.devRef Proc.tc main_arg5) : FVec Ideal S16x40 .f32))) := by
  rw [ops_split, after_append, after_append, after_append]
  have h := L_v29 (after (opsB (F := Ideal)) (after (opsRelu (F := Ideal)) (after (opsA (F := Ideal)) W)))
  rw [ofBuf_v29, ofBuf_v28, B_v28, R_v14, R_arg1, R_arg2, R_arg3, R_arg5, A_v13, A_arg1, A_arg2, A_arg3, A_arg5] at h
  exact h

end Read

/-! ## The run -/

/-- The reference's result as a function of the six argument arrays. -/
def refOut (x0 : FVec Ideal S50000x100 .f32) (x1 x2 : IVec S800000 32) (x3 : FVec Ideal S800000 .f32)
    (x4 : FVec Ideal S100x16 .f32) (x5 : FVec Ideal S16x40 .f32) : FVec Ideal S50000x40 .f32 :=
  (Cert.Gcn.hostLsm reducesTo_S50000x40_S50000_d1 h_S_ bcast_S_S50000 bcast_S50000_S50000x1_0 bcast_S50000x1_S50000x40_0_1 (Host.dotGeneral (F := Ideal) dot_S50000x16_S16x40_S50000x40_1_0_0_1_n_n none (Cert.Gcn.spmm gather_S50000x16_S800000x1_S800000x16_1_0_n_n_0_1_116 scatter_S50000x16_S800000x1_S800000x16_1_0_0_1
        bcast_S_S50000x16 bcast_S800000_S800000x1_0 bcast_S800000x1_S800000x16_0_1 bcast_S_S800000 x1 x2 x3 (maximumf (Host.dotGeneral (F := Ideal) dot_S50000x100_S100x16_S50000x16_1_0_0_1_n_n none (Cert.Gcn.spmm gather_S50000x100_S800000x1_S800000x100_1_0_n_n_0_1_1100 scatter_S50000x100_S800000x1_S800000x100_1_0_0_1
        bcast_S_S50000x100 bcast_S800000_S800000x1_0 bcast_S800000x1_S800000x100_0_1 bcast_S_S800000 x1 x2 x3 x0) x4) (broadcastInDim S50000x16 ![] bcast_S_S50000x16 (constant (F := Ideal) S_ .f32 0x00000000#32)))) x5))

/-- Every weakly fair execution of the reference terminates with the result buffer at `refOut` of the argument arrays
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v29).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Stages

end
-- ==== Proof.LibSingletonSoftmax.lean ====
/-
  The softmax over ONE element, on the extended reals. Over an axis of extent one, the softmax weight of a score `x` is
  `exp (x - max) / sum`, where `max` is the maximum of the one score `x` taken from minus infinity and `sum` is the sum
  of the one shifted exponential. At a FINITE score `x = r` the maximum is `r`, the shift `r - r` is `0`, its exponential
  is `1`, the sum is `1` and the quotient `1 / 1` is `1`: the weight is `1`. (At an infinite score the shift `x - x` is
  not `0`, which is why finiteness is needed.) With it: a maximum and a sum over an index set of one element, and the
  reading of "the absolute value is below plus infinity" as "is a real number".
-/
import Idealize.ShloMosaic.PureOps.Ideal
import Idealize.ShloMosaic.PureOps.Ideal.Laws

noncomputable section

namespace SingletonSoftmax

open Idealize.ShloMosaic

/-- The f32 word of minus infinity is the bottom of the extended reals. -/
theorem negInf_eq_bot : Ideal.ofBits .f32 0xFF800000#32 = ⊥ := by simp [Ideal.ofBits, Ideal.ieee]

/-- The exponential of a finite score shifted by itself is `1`. -/
theorem exp_sub_self (r : ℝ) : Ideal.exp ((r : EReal) - (r : EReal)) = 1 := by
  rw [← EReal.coe_sub, Ideal.exp_coe, sub_self, Real.exp_zero, EReal.coe_one]

/-- `1 / 1 = 1` for the division of the extended reals. -/
theorem div_one_one : Ideal.div 1 1 = 1 := by
  have h := Ideal.div_coe (y := (1 : ℝ)) one_ne_zero (1 : EReal)
  rw [EReal.coe_one] at h
  rw [h, one_mul, one_div, inv_one, EReal.coe_one]

/-- The maximum of one finite score, taken from minus infinity and then compared with minus infinity once more
    (the two steps a softmax's running maximum makes), is the score. -/
theorem max_single (r : ℝ) : max (⊥ : EReal) (max (r : EReal) ⊥) = r := by
  rw [max_bot_right, max_bot_left]

/-- THE WEIGHT OF A SINGLE FINITE SCORE IS ONE, in the form where the sum of the one shifted exponential starts from
    nothing. -/
theorem weight_single (r : ℝ) :
    Ideal.div (Ideal.exp ((r : EReal) - max (⊥ : EReal) (max (r : EReal) ⊥)))
      (Ideal.exp ((r : EReal) - max (⊥ : EReal) (max (r : EReal) ⊥))) = 1 := by
  rw [max_single, exp_sub_self, div_one_one]

/-- The same in the form where the sum starts from an explicit zero. -/
theorem weight_single_zero (r : ℝ) :
    Ideal.div (Ideal.exp ((r : EReal) - max (⊥ : EReal) (max (r : EReal) ⊥)))
      (0 + Ideal.exp ((r : EReal) - max (⊥ : EReal) (max (r : EReal) ⊥))) = 1 := by
  rw [zero_add, weight_single]

/-- A maximum folded over an index set of one element, from `b`, is that element's value against `b`. -/
theorem fold_max_one {n : Nat} (hn : n = 1) (b : EReal) (f : Fin n → EReal) :
    (Finset.univ : Finset (Fin n)).fold max b f = max (f ⟨0, by omega⟩) b := by
  subst hn
  rw [Finset.univ_unique, Finset.fold_singleton]
  rfl

/-- A sum over an index set of one element is that element's value. -/
theorem sum_one {n : Nat} (hn : n = 1) (f : Fin n → EReal) : ∑ k : Fin n, f k = f ⟨0, by omega⟩ := by
  subst hn
  rw [Finset.univ_unique, Finset.sum_singleton]
  rfl

/-- An extended real whose absolute value `max x (-x)` is below plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end SingletonSoftmax

end
-- ==== Proof.Finite.lean ====
/-
  From the stated precondition to entries that are real numbers.

  The precondition is one bit: the conjunction, over the four float arguments, of "every entry's absolute value is below
  +∞". A conjunction that is 1 has both parts 1; a reduction by `and` that is 1 had a 1 at every entry; and an extended real
  whose absolute value is below +∞ is a real number.
-/
import proofs.«134925_j63848983822675_1_alg».proof.Pre_finite_inputs
import proofs.«134925_j63848983822675_1_alg».proof.Proof.Gen.Pre_finite_inputs
import proofs.«134925_j63848983822675_1_alg».proof.Proof.LibSingletonSoftmax
import proofs.«134925_j63848983822675_1_alg».proof.Proof.LibRealEntries
import Idealize.ShloMosaic.Lib.ReduceAll
import Idealize.ShloMosaic.Lib.Affine
import Idealize.ShloMosaic.Lib.ValueIdx

noncomputable section

namespace Cert.Proof.Finite

open Idealize.ShloMosaic Cert.LibRealEntries Cert.Pre_finite_inputs Cert.Pre_finite_inputs.Gen

instance : Subsingleton S_.Idx := ⟨fun a b => funext fun d => d.elim0⟩

/-- Under the precondition every entry of the four float arguments is a real number. -/
theorem reals_of_pre (x0 : FVec Ideal S50000x100 .f32) (x1 x2 : IVec S800000 32) (x3 : FVec Ideal S800000 .f32)
    (x4 : FVec Ideal S100x16 .f32) (x5 : FVec Ideal S16x40 .f32)
    (h : fn (F := Ideal) x0 x1 x2 x3 x4 x5 = fun _ => 1#1) :
    (∀ i, IsReal (x0 i)) ∧ (∀ i, IsReal (x3 i)) ∧ (∀ i, IsReal (x4 i)) ∧ (∀ i, IsReal (x5 i)) := by
  have h0 := congrFun h ValueIdx.ix0
  dsimp only [fn, fn_part1] at h0
  obtain ⟨h012, h5⟩ := IntOp.andi_eq_one.mp h0
  obtain ⟨h01, h4⟩ := IntOp.andi_eq_one.mp h012
  obtain ⟨h00, h3⟩ := IntOp.andi_eq_one.mp h01
  refine ⟨fun i => ?_, fun i => ?_, fun i => ?_, fun i => ?_⟩
  · exact SingletonSoftmax.real_of_abs_lt_top (x0 i) (Host.reduce_andi_all _ _ _ _ _ h00 i)
  · exact SingletonSoftmax.real_of_abs_lt_top (x3 i) (Host.reduce_andi_all _ _ _ _ _ h3 i)
  · exact SingletonSoftmax.real_of_abs_lt_top (x4 i) (Host.reduce_andi_all _ _ _ _ _ h4 i)
  · exact SingletonSoftmax.real_of_abs_lt_top (x5 i) (Host.reduce_andi_all _ _ _ _ _ h5 i)

end Cert.Proof.Finite

end
-- ==== Proof.Bridge.lean ====
/-
  The two programs compute one function of the six argument arrays, when the float arguments are real.

  Both run the same two rounds of message passing and the same two matrix products; the reference takes the maximum
  with zero and the log-softmax as host operations, the kernel inside its two launches, and they write the log-softmax
  differently. Every entry that reaches the log-softmax is a real number — a finite sum of products of real numbers,
  through both rounds —, so every row maximum is real and the two ways of writing it agree.
-/
import proofs.«134925_j63848983822675_1_alg».proof.Proof.Spec
import proofs.«134925_j63848983822675_1_alg».proof.Proof.HostForms
import proofs.«134925_j63848983822675_1_alg».proof.Proof.RefRun
import proofs.«134925_j63848983822675_1_alg».proof.Proof.KHost

noncomputable section

namespace Cert.Proof.Bridge

open Idealize.ShloMosaic Cert.Gcn Cert.LibRealEntries

/-! ## The two programs' shape records are the same records -/

theorem g100_eq : Cert.ReferenceIdeal.gather_S50000x100_S800000x1_S800000x100_1_0_n_n_0_1_1100 = Cert.KernelIdeal.gather_S50000x100_S800000x1_S800000x100_1_0_n_n_0_1_1100 := rfl
theorem s100_eq : Cert.ReferenceIdeal.scatter_S50000x100_S800000x1_S800000x100_1_0_0_1 = Cert.KernelIdeal.scatter_S50000x100_S800000x1_S800000x100_1_0_0_1 := rfl
theorem g16_eq : Cert.ReferenceIdeal.gather_S50000x16_S800000x1_S800000x16_1_0_n_n_0_1_116 = Cert.KernelIdeal.gather_S50000x16_S800000x1_S800000x16_1_0_n_n_0_1_116 := rfl
theorem s16_eq : Cert.ReferenceIdeal.scatter_S50000x16_S800000x1_S800000x16_1_0_0_1 = Cert.KernelIdeal.scatter_S50000x16_S800000x1_S800000x16_1_0_0_1 := rfl
theorem dotA_eq : Cert.ReferenceIdeal.dot_S50000x100_S100x16_S50000x16_1_0_0_1_n_n = DotDims.plain 50000 100 16 := rfl
theorem dotB_eq : Cert.ReferenceIdeal.dot_S50000x16_S16x40_S50000x40_1_0_0_1_n_n = DotDims.plain 50000 16 40 := rfl

/-- The reference's result and the idealized kernel's are one function of the arguments, on real float arguments. -/
theorem out_eq (x0 : FVec Ideal ⟨2, ![50000, 100]⟩ .f32) (x1 x2 : IVec ⟨1, ![800000]⟩ 32) (x3 : FVec Ideal ⟨1, ![800000]⟩ .f32)
    (x4 : FVec Ideal ⟨2, ![100, 16]⟩ .f32) (x5 : FVec Ideal ⟨2, ![16, 40]⟩ .f32)
    (hx0 : ∀ i, IsReal (x0 i)) (hx3 : ∀ i, IsReal (x3 i)) (hx4 : ∀ i, IsReal (x4 i)) (hx5 : ∀ i, IsReal (x5 i)) :
    Cert.ReferenceIdeal.Stages.refOut x0 x1 x2 x3 x4 x5 = Cert.KernelIdeal.Val.kerOut x0 x1 x2 x3 x4 x5 := by
  unfold Cert.ReferenceIdeal.Stages.refOut Cert.KernelIdeal.Val.kerOut
  rw [g100_eq, s100_eq, g16_eq, s16_eq, dotA_eq, dotB_eq, hostDot_eq, hostRelu_eq, hostDot_eq,
    hostLsm_eq _ _ _ _ _ (by decide : (50000 : Nat) ≠ 1) (by decide)]
  refine (lsmKer_eq_lsmRef (by decide) _ fun i => ?_).symm
  refine matmulFn_real _ _ (fun i => ?_) hx5 i
  refine spmm_real _ _ rfl rfl rfl rfl rfl rfl rfl rfl rfl rfl rfl _ _ _ _ x1 x2 x3 _ hx3 (fun i => ?_) i
  refine relu0_real _ (fun i => ?_) i
  refine matmulFn_real _ _ (fun i => ?_) hx4 i
  exact spmm_real _ _ rfl rfl rfl rfl rfl rfl rfl rfl rfl rfl rfl _ _ _ _ x1 x2 x3 _ hx3 hx0 i

end Cert.Proof.Bridge

end
-- ==== Proof.lean ====
/-
  The certificate of a two-layer graph convolution: log_softmax (A · relu (A · X · W1) · W2) with A given as an edge list.

  The kernel runs the two sparse products A · (·) on the host — a gather of source rows, a scaling by the edge weights, an
  accumulating scatter into destination rows — and the two dense layers as two launches over five blocks of 10000 rows:
  rows block × W1 then the maximum with zero; rows block × W2 then the log-softmax of every row, written as
  x − (max + log Σ exp (x − max)). The reference runs the same sparse products and the same dense products as host
  operations and writes the log-softmax as (x − max) − log Σ exp (x − max).

  On the extended reals the roundings to bf16 are the identity, a matrix product into zeros is the plain sum of products
  on both sides, and the sparse products are literally the same host operations on both sides. The one law that joins the two
  is x − (m + L) = (x − m) − L, which holds when m is a real number and fails at m = ±∞; the precondition (every float
  input finite) makes every entry of both sparse products and both dense products a real number, hence every row maximum.

  The three frames: the two kernels' are generated whole; the reference's is its run with the result dropped. The
  idealization rewrote nothing, so `preserves` is trivial.
-/
import proofs.«134925_j63848983822675_1_alg».proof.Defs
import proofs.«134925_j63848983822675_1_alg».proof.Proof.Gen.Kernel
import proofs.«134925_j63848983822675_1_alg».proof.Proof.Gen.Kernel.Skeleton
import proofs.«134925_j63848983822675_1_alg».proof.Proof.Gen.Kernel.Launch
import proofs.«134925_j63848983822675_1_alg».proof.Proof.Gen.Kernel.Points
import proofs.«134925_j63848983822675_1_alg».proof.Proof.Gen.Kernel.Frame
import proofs.«134925_j63848983822675_1_alg».proof.Proof.Gen.KernelIdeal
import proofs.«134925_j63848983822675_1_alg».proof.Proof.Gen.KernelIdeal.Skeleton
import proofs.«134925_j63848983822675_1_alg».proof.Proof.Gen.KernelIdeal.Launch
import proofs.«134925_j63848983822675_1_alg».proof.Proof.Gen.KernelIdeal.Points
import proofs.«134925_j63848983822675_1_alg».proof.Proof.Gen.KernelIdeal.Frame
import proofs.«134925_j63848983822675_1_alg».proof.Proof.Gen.ReferenceIdeal
import proofs.«134925_j63848983822675_1_alg».proof.Proof.Gen.Pre_finite_inputs
import proofs.«134925_j63848983822675_1_alg».proof.Proof.KernelRun
import proofs.«134925_j63848983822675_1_alg».proof.Proof.KHost
import proofs.«134925_j63848983822675_1_alg».proof.Proof.RefRun
import proofs.«134925_j63848983822675_1_alg».proof.Proof.Finite
import proofs.«134925_j63848983822675_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Stages.run m ρ)

/-- The ideal pass rewrote no operation. -/
theorem preserves : Cert.preserves_Kernel_KernelIdeal := trivial

/-- Both idealized programs end with the result buffer at one function of the argument arrays: the kernel's run names
    it `kerOut`, the reference's `refOut`, and on finite inputs they are equal. -/
theorem algebraic : Cert.algebraic_KernelIdeal_ReferenceIdeal := by
  intro m ρ m' ρ' hpre hagree
  refine ⟨fun c => Cert.KernelIdeal.Gen.W4 m ρ c (Proc.devRef Proc.tc Cert.KernelIdeal.main_v27),
    Cert.KernelIdeal.Val.run_result (F := Ideal) m ρ, ?_⟩
  refine (θ_run Cert.ReferenceIdeal.defs _ _).mono (fun _ h c => ⟨(h c).1.trans ?_, (h c).2⟩)
    (Cert.ReferenceIdeal.Stages.run m' ρ')
  obtain ⟨e0, e1, e2, e3, e4, e5⟩ := hagree c
  obtain ⟨hx0, hx3, hx4, hx5⟩ := Cert.Proof.Finite.reals_of_pre _ _ _ _ _ _ (hpre c)
  rw [e0, e1, e2, e3, e4, e5]
  exact (Cert.Proof.Bridge.out_eq _ _ _ _ _ _ hx0 hx3 hx4 hx5).trans (Cert.KernelIdeal.Val.W4_v27 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
